-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S1024x256 : Shape := ⟨2, ![1024, 256]⟩
abbrev S256x2048 : Shape := ⟨2, ![256, 2048]⟩
abbrev S1x2048 : Shape := ⟨2, ![1, 2048]⟩
abbrev S1024x2048 : Shape := ⟨2, ![1024, 2048]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x256, .f32⟩
  | .local _ .vmem, ⟨5, _⟩ => ⟨S1024x256, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x4096.size a
  hwx1_1 : ∀ i : grid1.Coords, EltTy.bits .bf16 = 32 ∨ (Rect.block (s := S4096x4096) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .i1⟩
  | .hbm, ⟨12, _⟩ => ⟨S4096x4096, .i32⟩
  | .hbm, ⟨13, _⟩ => ⟨S_, .i32⟩
  | .hbm, ⟨14, _⟩ => ⟨S4096, .i32⟩
  | .hbm, ⟨15, _⟩ => ⟨S4096x1, .i32⟩
  | .hbm, ⟨16, _⟩ => ⟨S4096x1, .f32⟩
  | .hbm, ⟨17, _⟩ => ⟨S_, .i32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096x4096, .f32⟩
  | .hbm, ⟨26, _⟩ => ⟨S4096x4096, .i1⟩
  | .hbm, ⟨27, _⟩ => ⟨S4096x1, .f32⟩
  | .hbm, ⟨28, _⟩ => ⟨S4096x4096, .f32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_5 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  natLt_1_32 : 1 < 32
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KBRegionTern.lean ====
/-
  The first call of the program (the weight ternarization), as the pipeline runs it: a grid of sixteen
  points, point t reading rows 256·t … 256·t+255 of the weight matrix (all 4096 columns) and writing the
  same rows of the ternarized matrix. Stated at ANY contents V of the core's buffers on entry. What a
  point leaves in the output's staging buffer is one whole-block store of the body's value of the input
  block; the body reads the input block, reads (and ignores) the output buffer, and stores.
-/
import proofs.«124082_j4320737100212_2_alg».proof.Proof.Gen.Kernel.Launch
import proofs.«124082_j4320737100212_2_alg».proof.Proof.Gen.Kernel.Skeleton
import proofs.«124082_j4320737100212_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 block, as the rectangle the body loads and stores through. -/
abbrev r0 : Rect S256x4096 := Rect.unit (s := S256x4096) ![0, 0] S256x4096.size Facts₀.inb_S256x4096_S256x4096_0_0

/-- What a point leaves in the output's staging buffer: the body's value of the input block, stored whole. -/
def out0_1 (x0 : Vec F S256x4096 .f32) : Vec F S256x4096 .bf16 :=
  View.canon [⟨r0, k0_pay1 (View.ld x0 r0)⟩]

/-- The one store covers the buffer. -/
theorem cover0_1 (p0 : Vec F S256x4096 .bf16) (y : S256x4096.Idx) :
    ∃ pc ∈ ([⟨r0, p0⟩] : List (View.Piece (Elt F) S256x4096 .bf16)), y ∈ pc.1.set :=
  View.cover_of_tiled [⟨r0, p0⟩] S256x4096.size (by rfl) y

set_option maxHeartbeats 1000000 in
/-- The body on whole staging buffers: the input's kept, the output's left at the stored value. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__ternarize_kernel i arg1 harg1 arg2 harg2) K := by
  simp only [cc0__ternarize_kernel_eq_skeleton]; unfold cc0__ternarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the call on core c: the arrays as found; after point t the input's buffer at its block,
    the output's at the stored value; nothing kept between points beyond the scoped rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBMatmulShared.lean ====
/-
  The second call of the program (the tiled matrix product), what its three control cases share. The grid
  has 8 × 2 × 16 points, the last coordinate k running fastest; the body clears its accumulator when k = 0,
  always adds the product of the point's two input blocks to it, and when k = 15 stores accumulator plus
  bias row into the output block. So a point is in exactly one of three cases: k = 0 (clear and add),
  0 < k < 15 (add), k = 15 (add and store).
-/
import proofs.«124082_j4320737100212_2_alg».proof.Proof.Gen.Kernel.Launch
import proofs.«124082_j4320737100212_2_alg».proof.Proof.Gen.Kernel.Skeleton
import proofs.«124082_j4320737100212_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "k = 0", as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "k = 15", as the body computes it. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly where k ≠ 15. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The staging buffers the pipeline passes at point t, and the accumulator. -/
abbrev ms1_0 (t : Fin cfg1.N) : Memref sig .tc .vmem S1024x256 .f32 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S256x2048 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x2048 .f32 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1024x2048 .f32 := win1_3.stage (cfg1.slots t 3)
abbrev hs1_3 (t : Fin cfg1.N) : (ms1_3 t).IsWhole := Facts₀.hstage1_3 ((cfg1.slots t 3).cast Facts₀.nbuf1_3)
abbrev scM1 : Memref sig .tc .vmem S1024x2048 .f32 := Memref.whole cc1_scratch0
abbrev VS1 : View sig .tc .vmem S1024x2048 .f32 := scM1.view
abbrev VO1_3 : View sig .tc .vmem S1024x2048 .f32 := (Memref.whole cc1_stg3_0 : Memref sig .tc .vmem S1024x2048 .f32).view

/-- The other call's four staging buffers, each whole at some contents: scoped memory this call never touches. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- Before the first point the call holds: that scoped memory, the accumulator at some contents, the generator register. -/
theorem PhiA1_le (c : Dev nD) :
    (Pipeline.ΦA spec1 c : sProp 𝕄) ⊢ iprop(other1 c ∗ (∃ d, owns (c : Thread nD τ) scM1 fullShare d) ∗ (∃ r, prngReg c r)) := by
  unfold Pipeline.ΦA other1; rw [scopedRest1_eq]
  iintro ⟨⟨H0, H1, H2, H3, ⟨%f, HS⟩⟩, Hg⟩
  isplitl [H0 H1 H2 H3]
  · isplitl [H0]; · iexact H0
    isplitl [H1]; · iexact H1
    isplitl [H2]; · iexact H2
    iexact H3
  isplitl [HS]
  · iexists f; rw [owns_whole]; iexact HS
  iexact Hg

theorem PhiA1_ge (c : Dev nD) :
    iprop(other1 c ∗ (∃ d, owns (c : Thread nD τ) scM1 fullShare d) ∗ (∃ r, prngReg c r)) ⊢ (Pipeline.ΦA spec1 c : sProp 𝕄) := by
  unfold Pipeline.ΦA other1; rw [scopedRest1_eq]
  simp only [scM1, owns_whole]
  iintro ⟨⟨H0, H1, H2, H3⟩, ⟨%d, HS⟩, Hg⟩
  isplitr [Hg]
  · isplitl [H0]; · iexact H0
    isplitl [H1]; · iexact H1
    isplitl [H2]; · iexact H2
    isplitl [H3]; · iexact H3
    iexists d; iexact HS
  iexact Hg

end Cert.Kernel.Hand

end
-- ==== Proof.KBMatmulRuns.lean ====
/-
  The matrix-product body run once per control case, on any whole staging buffers. In each case the body
  keeps its input buffers as they were and leaves the accumulator (and, when k = 15, the output buffer)
  holding the values its stores wrote; those stored pieces are found by running the body.
-/
import proofs.«124082_j4320737100212_2_alg».proof.Proof.KBMatmulShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: the accumulator, at anything, is cleared and the product of the two input blocks added. -/
noncomputable def kernelRun1_A (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- 0 < k < 15: the product of the two input blocks is added to the accumulator as the point before left it. -/
noncomputable def kernelRun1_B (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg7 fullShare xs0
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- k = 15: the product is added to the accumulator, and accumulator plus bias row stored into the output buffer. -/
noncomputable def kernelRun1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KBRegionMatmul.lean ====
/-
  The second call (the tiled matrix product) as the pipeline runs it, at ANY contents V of the core's buffers
  on entry. The accumulator is carried from point to point: after point t it holds what the case of t stored
  into it — computed from the point's two input blocks alone when k = 0, and from them and what the point
  before left otherwise. The output's staging buffer is stored only when k = 15, from the accumulator and the
  bias block; elsewhere it is idle and is not written back.
-/
import proofs.«124082_j4320737100212_2_alg».proof.Proof.KBMatmulRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave -/

theorem scover1_A (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) (y : S1024x2048.Idx) :
    ∃ pc ∈ (kernelRun1_A c i arg3 harg3 arg4 harg4 arg5 harg5 arg6 harg6 arg7 harg7 hc0 hc1 x0 x1).1, y ∈ pc.1.set :=
  View.cover_of_tiledL (kernelRun1_A c i arg3 harg3 arg4 harg4 arg5 harg5 arg6 harg6 arg7 harg7 hc0 hc1 x0 x1).1 S1024x2048.size (by sl_kernel_rfl) y

/-- The accumulator after a point with k = 0. -/
def sout1_A (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) : Vec F S1024x2048 .f32 :=
  VS1.read (Elt F) (VS1.writes (Elt F) VS1.junk (kernelRun1_A c i arg3 harg3 arg4 harg4 arg5 harg5 arg6 harg6 arg7 harg7 hc0 hc1 x0 x1).1)

theorem scover1_B (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) (y : S1024x2048.Idx) :
    ∃ pc ∈ (kernelRun1_B c i arg3 harg3 arg4 harg4 arg5 harg5 arg6 harg6 arg7 harg7 hc0 hc1 x0 x1 xs0).1, y ∈ pc.1.set :=
  View.cover_of_tiledL (kernelRun1_B c i arg3 harg3 arg4 harg4 arg5 harg5 arg6 harg6 arg7 harg7 hc0 hc1 x0 x1 xs0).1 S1024x2048.size (by sl_kernel_rfl) y

/-- The accumulator after a point with 0 < k < 15. -/
def sout1_B (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 xs0).1)

theorem cover1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- The output's staging buffer after a point with k = 15. -/
def out1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- The accumulator after a point with k = 15. -/
def sout1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)

/-! ## The accumulator point by point -/

theorem nc1_of_k0 {t : Fin cfg1.N} (h0 : t.val % 16 = 0) : ¬cond1_1 (grid1.coords t) :=
  fun h => by have := (hcond1_1 t).mp h; omega
theorem nc0_of_ne {t : Fin cfg1.N} (h0 : ¬t.val % 16 = 0) : ¬cond1_0 (grid1.coords t) :=
  fun h => h0 ((hcond1_0 t).mp h)
theorem nc1_of_ne {t : Fin cfg1.N} (h1 : ¬t.val % 16 = 15) : ¬cond1_1 (grid1.coords t) :=
  fun h => h1 ((hcond1_1 t).mp h)

/-- One point's effect on the accumulator, given what the point before left. -/
def accStep (c : Dev nD) (t : Fin cfg1.N) (prev : Vec F S1024x2048 .f32) : Vec F S1024x2048 .f32 :=
  if h0 : t.val % 16 = 0 then
    sout1_A c (grid1.coords t) (ms1_0 t) (hs1_0 t) (ms1_1 t) (hs1_1 t) (ms1_2 t) (hs1_2 t) (ms1_3 t) (hs1_3 t) scM1 (Memref.isWhole_whole _) ((hcond1_0 t).mpr h0) (nc1_of_k0 h0) (iblk1 V c 0 t) (iblk1 V c 1 t)
  else if h1 : t.val % 16 = 15 then
    sout1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) prev
  else
    sout1_B c (grid1.coords t) (ms1_0 t) (hs1_0 t) (ms1_1 t) (hs1_1 t) (ms1_2 t) (hs1_2 t) (ms1_3 t) (hs1_3 t) scM1 (Memref.isWhole_whole _) (nc0_of_ne h0) (nc1_of_ne h1) (iblk1 V c 0 t) (iblk1 V c 1 t) prev

/-- What the accumulator holds after the point at position n. -/
def accAt (c : Dev nD) : (n : ℕ) → n < cfg1.N → Vec F S1024x2048 .f32
  | 0, hn => accStep V c ⟨0, hn⟩ (VS1.read (Elt F) VS1.junk)
  | n + 1, hn => accStep V c ⟨n + 1, hn⟩ (accAt c n (Nat.lt_of_succ_lt hn))

theorem accAt_pos (c : Dev nD) (t : Fin cfg1.N) (hz : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl hz
  | succ n => rfl

theorem accStep_A (c : Dev nD) (t : Fin cfg1.N) (prev : Vec F S1024x2048 .f32) (h0 : t.val % 16 = 0) :
    accStep V c t prev = sout1_A c (grid1.coords t) (ms1_0 t) (hs1_0 t) (ms1_1 t) (hs1_1 t) (ms1_2 t) (hs1_2 t) (ms1_3 t) (hs1_3 t) scM1 (Memref.isWhole_whole _) ((hcond1_0 t).mpr h0) (nc1_of_k0 h0) (iblk1 V c 0 t) (iblk1 V c 1 t) :=
  dif_pos h0
theorem accStep_B (c : Dev nD) (t : Fin cfg1.N) (prev : Vec F S1024x2048 .f32) (h0 : ¬t.val % 16 = 0) (h1 : ¬t.val % 16 = 15) :
    accStep V c t prev = sout1_B c (grid1.coords t) (ms1_0 t) (hs1_0 t) (ms1_1 t) (hs1_1 t) (ms1_2 t) (hs1_2 t) (ms1_3 t) (hs1_3 t) scM1 (Memref.isWhole_whole _) (nc0_of_ne h0) (nc1_of_ne h1) (iblk1 V c 0 t) (iblk1 V c 1 t) prev :=
  (dif_neg h0).trans (dif_neg h1)
theorem accStep_C (c : Dev nD) (t : Fin cfg1.N) (prev : Vec F S1024x2048 .f32) (h0 : ¬t.val % 16 = 0) (h1 : t.val % 16 = 15) :
    accStep V c t prev = sout1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) prev :=
  (dif_neg h0).trans (dif_pos h1)

theorem accAt_A (c : Dev nD) (t : Fin cfg1.N) (h0 : t.val % 16 = 0) :
    accAt V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (nc1_of_k0 h0) (iblk1 V c 0 t) (iblk1 V c 1 t) := by
  obtain ⟨n, hn⟩ := t
  cases n with
  | zero => exact accStep_A V c ⟨0, hn⟩ _ h0
  | succ n => exact accStep_A V c ⟨n + 1, hn⟩ _ h0

/-- The accumulator as the point t finds it, for t not the first. -/
abbrev accBefore (c : Dev nD) (t : Fin cfg1.N) : Vec F S1024x2048 .f32 :=
  accAt V c (t.val - 1) (Nat.lt_of_le_of_lt (Nat.sub_le _ _) t.isLt)

/-- What the output's staging buffer holds after point t: stored when k = 15, otherwise of no consequence. -/
def outAt (c : Dev nD) (t : Fin cfg1.N) : Vec F S1024x2048 .f32 :=
  if h0 : t.val % 16 = 0 then VO1_3.read (Elt F) VO1_3.junk
  else if h1 : t.val % 16 = 15 then
    out1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) (accBefore V c t)
  else VO1_3.read (Elt F) VO1_3.junk

theorem outAt_C (c : Dev nD) (t : Fin cfg1.N) (h0 : ¬t.val % 16 = 0) (h1 : t.val % 16 = 15) :
    outAt V c t = out1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) (accBefore V c t) :=
  (dif_neg h0).trans (dif_pos h1)

/-! ## The invariant between points, and the proof data -/

/-- Before the point at position n: at first the scoped rest as the call finds it; afterwards the same with
    the accumulator at what the point before left. -/
def PhiS (c : Dev nD) : (n : ℕ) → n ≤ cfg1.N → sProp 𝕄
  | 0, _ => Pipeline.ΦA spec1 c
  | n + 1, hn => iprop(other1 c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(other1 c ∗ owns (c : Thread nD τ) scM1 fullShare (accAt V c n hn) ∗ (∃ r, prngReg c r)) := rfl
theorem PhiS_pos (c : Dev nD) (n : ℕ) (h : n ≤ cfg1.N) (hz : n ≠ 0) :
    PhiS V c n h = iprop(other1 c ∗ owns (c : Thread nD τ) scM1 fullShare (accAt V c (n - 1) (by omega)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 16 = 0
  · rw [Dat.leavesExact_idle (dat1 V c) 3 t (idleAt1_3 t (nc1_of_k0 h0)) (noFlush1_3 t (nc1_of_k0 h0))]
    rw [accAt_A V c t h0]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_le c) $$ HΦ
      icases HΦ' with ⟨Hoth, HS0, Hg⟩
      iapply ((kernelRun1_A c (grid1.coords t) _ _ _ _ _ _ _ _ _ _ ((hcond1_0 t).mpr h0) (nc1_of_k0 h0) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (nc1_of_k0 h0) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [PhiS_castSucc V c t, PhiS_pos V c _ _ hz, accAt_pos V c t hz]
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [accStep_C V c t _ h0 h1, outAt_C V c t h0 h1]
      unfold out1_C sout1_C; (try dsimp only)
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (nc0_of_ne h0) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (nc1_of_ne h1)) (noFlush1_3 t (nc1_of_ne h1))]
      rw [accStep_B V c t _ h0 h1]
      unfold sout1_B; (try dsimp only)
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (nc0_of_ne h0) (nc1_of_ne h1) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- Forgetting what the accumulator holds gives the scoped rest back. -/
theorem forget_acc (c : Dev nD) (a : Vec F S1024x2048 .f32) :
    iprop(other1 c ∗ owns (c : Thread nD τ) scM1 fullShare a ∗ (∃ r, prngReg c r)) ⊢ (Pipeline.ΦA spec1 c : sProp 𝕄) :=
  (show iprop(other1 c ∗ owns (c : Thread nD τ) scM1 fullShare a ∗ (∃ r, prngReg c r))
      ⊢ (iprop(other1 c ∗ (∃ d, owns (c : Thread nD τ) scM1 fullShare d) ∗ (∃ r, prngReg c r)) : sProp 𝕄) from by
    iintro ⟨Hoth, HS0, Hg⟩
    isplitl [Hoth]; · iexact Hoth
    isplitl [HS0]; · iexists _; iexact HS0
    iexact Hg).trans (PhiA1_ge c)

/-- After the last point the invariant gives the scoped rest back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl, PhiS_pos V c _ _ hne]
  exact forget_acc c _

end Cert.Kernel.Hand

end
-- ==== Proof.KBRun.lean ====
/-
  The whole program on one core: the ternarization call, the reshape of the bias vector to a row, the matrix
  product call. The contents of every unscoped buffer are followed from the launch memory through the three
  steps (a call leaves its arrays at what its write-backs make of them and every other buffer alone), and
  every weakly fair execution ends with each unscoped buffer at the last of these contents. The three
  argument arrays are read back through the steps to their launch contents.
-/
import proofs.«124082_j4320737100212_2_alg».proof.Proof.KBRegionTern
import proofs.«124082_j4320737100212_2_alg».proof.Proof.KBRegionMatmul

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first call's entry). -/
abbrev W0 : Dev nD → Valuation τ sig (Elt F) := fun c b => m (c, b)
abbrev VE0 : (c : Dev nD) → (b : Ref sig .tc) → Buf (Elt F) ((c : Thread nD τ).loc b) := fun c b => W0 m c b
/-- After the first call: its arrays at what its write-backs leave, the rest as entered. -/
def W1 (c : Dev nD) : Valuation τ sig (Elt F) :=
  Pipeline.withArrays spec0 c (W0 m c) fun w => (dat0 (VE0 m) c).arrAt w cfg0.N
theorem W1_arr (c : Dev nD) (w : Fin cfg0.W) :
    W1 m c (Proc.devRef .tc (Pipeline.arrRef spec0 w)) = (dat0 (VE0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VE1 : (c : Dev nD) → (b : Ref sig .tc) → Buf (Elt F) ((c : Thread nD τ).loc b) := fun c b => W1 m c b
theorem hF0 (c : Dev nD) (w : Fin cfg0.W) : (dat0 (VE0 m) c).arrAt w cfg0.N = VE1 m c (Pipeline.arrRef spec0 w) :=
  (W1_arr m c w).symm
theorem hrest0 (c : Dev nD) : ∀ b, b ∉ Finset.univ.image (Pipeline.arrRef spec0) → VE1 m c b = VE0 m c b :=
  fun b hb => W1_of_ne m c b fun w e => hb (Finset.mem_image.mpr ⟨w, Finset.mem_univ _, e⟩)

/-- After the reshape (the second call's entry). -/
abbrev W2 : Dev nD → Valuation τ sig (Elt F) := fun c => StableHlo.after hostOps1 (W1 m c)
abbrev VE2 : (c : Dev nD) → (b : Ref sig .tc) → Buf (Elt F) ((c : Thread nD τ).loc b) := fun c b => W2 m c b
/-- After the second call. -/
def W3 (c : Dev nD) : Valuation τ sig (Elt F) :=
  Pipeline.withArrays spec1 c (W2 m c) fun w => (dat1 (VE2 m) c).arrAt w cfg1.N
theorem W3_arr (c : Dev nD) (w : Fin cfg1.W) :
    W3 m c (Proc.devRef .tc (Pipeline.arrRef spec1 w)) = (dat1 (VE2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VE3 : (c : Dev nD) → (b : Ref sig .tc) → Buf (Elt F) ((c : Thread nD τ).loc b) := fun c b => W3 m c b
theorem hF1 (c : Dev nD) (w : Fin cfg1.W) : (dat1 (VE2 m) c).arrAt w cfg1.N = VE3 m c (Pipeline.arrRef spec1 w) :=
  (W3_arr m c w).symm
theorem hrest1 (c : Dev nD) : ∀ b, b ∉ Finset.univ.image (Pipeline.arrRef spec1) → VE3 m c b = VE2 m c b :=
  fun b hb => W3_of_ne m c b fun w e => hb (Finset.mem_image.mpr ⟨w, Finset.mem_univ _, e⟩)

/-! ## The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg0) := W1_of_ne m c main_arg0 (by decide)
    _ = m ((c : Thread nD τ).loc main_arg0) := rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (VE2 m) c).arrAt_in 0 rfl _).trans (A_eq1 (VE2 m) c 0))
    _ = m ((c : Thread nD τ).loc main_arg0) := W2_main_arg0 m c

theorem W1_main_arg1 (c : Dev nD) : W1 m c (Proc.devRef .tc main_arg1) = m ((c : Thread nD τ).loc main_arg1) :=
  (W1_arr m c 0).trans (((dat0 (VE0 m) c).arrAt_in 0 rfl _).trans (A_eq0 (VE0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := W1_main_arg1 m c

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg2) := W1_of_ne m c main_arg2 (by decide)
    _ = m ((c : Thread nD τ).loc main_arg2) := rfl

/-- The result array at the end is what the second call's write-backs leave in it. -/
theorem W3_main_v2 (c : Dev nD) : W3 m c (Proc.devRef .tc main_v2) = (dat1 (VE2 m) c).arrAt 3 cfg1.N :=
  W3_arr m c 3

/-- The second call finds the ternarized matrix as the first call's write-backs left it. -/
theorem W2_main_v0 (c : Dev nD) : W2 m c (Proc.devRef .tc main_v0) = (dat0 (VE0 m) c).arrAt 1 cfg0.N :=
  calc W2 m c (Proc.devRef .tc main_v0)
    _ = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = (dat0 (VE0 m) c).arrAt 1 cfg0.N := W1_arr m c 1

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (VE0 m) c
  | ⟨1, _⟩ => fun c => dat1 (VE2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_freshH : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VE0 m c) (VE1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generator register, with the scoped buffers the second call stages nothing in, is the class's invariant; -/
theorem reg1_in (c : Dev nD) :
    iprop((∃ r, prngReg c r) ∗ Pipeline.prefHeld (Ix := Unit) (Name := ℕ) (U := UR sig nD τ) (Lvl := ℕ) (pcfgs (F := F) 1).pre c (fun _ => fullShare) (admH (F := F) 1).1
      ∗ Pipeline.scopedRest (Ix := Unit) (Name := ℕ) (U := UR sig nD τ) (Lvl := ℕ) (Val := Elt F) spec1 c)
    ⊢ (Pipeline.ΦA spec1 c : sProp 𝕄) := by
  unfold Pipeline.ΦA
  iintro ⟨Hp, -, Hr⟩
  isplitl [Hr]; · iexact Hr
  iexact Hp
/-- and that invariant gives them back. -/
theorem reg1_out (c : Dev nD) :
    (Pipeline.ΦA spec1 c : sProp 𝕄)
    ⊢ iprop((∃ r, prngReg c r) ∗ Pipeline.ownSems0 (Ix := Unit) (Name := ℕ) (U := UR sig nD τ) (Lvl := ℕ) (Val := Elt F) (fun k : PEmpty => (k.elim : SemLoc sig)) c
      ∗ Pipeline.scopedRest (Ix := Unit) (Name := ℕ) (U := UR sig nD τ) (Lvl := ℕ) (Val := Elt F) spec1 c) := by
  rw [Pipeline.ownSems0_none]
  unfold Pipeline.ΦA
  iintro ⟨Hr, Hp⟩
  isplitl [Hp]; · iexact Hp
  isplitr; · iempintro
  iexact Hr

set_option backward.isDefEq.respectTransparency.types false in
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (reg1_in c).trans (show Pipeline.ΦA spec1 c ⊢ (pdats m 1 c).Φ 0 from hin1 (VE2 m) c)
  hout c := (show (pdats m 1 c).Φ (Fin.last _) ⊢ Pipeline.ΦA spec1 c from hout1 (VE2 m) c).trans (reg1_out c)
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VE2 m c) (VE3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdats m) () defs₀ 𝒱₀ L lv) :=
  [ .region (reg0 m),
    .host (hseg hostOps1 hostOps1_sub hostOps1_freshH (W1 m)),
    .region (reg1 m) ]
theorem main_run (c : Dev nD) : main (F := F) c = Pipeline.Seg.run (segsH m) := (main_chain c).trans (by chain_rfl)

set_option backward.isDefEq.respectTransparency.types false in
/-- Every weakly fair execution of the program from memory m terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.Kernel.Hand

end
-- ==== Proof.KIRegionTern.lean ====
/-
  The first call of the program (the weight ternarization), as the pipeline runs it: a grid of sixteen
  points, point t reading rows 256·t … 256·t+255 of the weight matrix (all 4096 columns) and writing the
  same rows of the ternarized matrix. Stated at ANY contents V of the core's buffers on entry. What a
  point leaves in the output's staging buffer is one whole-block store of the body's value of the input
  block; the body reads the input block, reads (and ignores) the output buffer, and stores.
-/
import proofs.«124082_j4320737100212_2_alg».proof.Proof.Gen.KernelIdeal.Launch
import proofs.«124082_j4320737100212_2_alg».proof.Proof.Gen.KernelIdeal.Skeleton
import proofs.«124082_j4320737100212_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 block, as the rectangle the body loads and stores through. -/
abbrev r0 : Rect S256x4096 := Rect.unit (s := S256x4096) ![0, 0] S256x4096.size Facts₀.inb_S256x4096_S256x4096_0_0

/-- What a point leaves in the output's staging buffer: the body's value of the input block, stored whole. -/
def out0_1 (x0 : Vec F S256x4096 .f32) : Vec F S256x4096 .bf16 :=
  View.canon [⟨r0, k0_pay1 (View.ld x0 r0)⟩]

/-- The one store covers the buffer. -/
theorem cover0_1 (p0 : Vec F S256x4096 .bf16) (y : S256x4096.Idx) :
    ∃ pc ∈ ([⟨r0, p0⟩] : List (View.Piece (Elt F) S256x4096 .bf16)), y ∈ pc.1.set :=
  View.cover_of_tiled [⟨r0, p0⟩] S256x4096.size (by rfl) y

set_option maxHeartbeats 1000000 in
/-- The body on whole staging buffers: the input's kept, the output's left at the stored value. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__ternarize_kernel i arg1 harg1 arg2 harg2) K := by
  simp only [cc0__ternarize_kernel_eq_skeleton]; unfold cc0__ternarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the call on core c: the arrays as found; after point t the input's buffer at its block,
    the output's at the stored value; nothing kept between points beyond the scoped rest. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIMatmulShared.lean ====
/-
  The second call of the program (the tiled matrix product), what its three control cases share. The grid
  has 8 × 2 × 16 points, the last coordinate k running fastest; the body clears its accumulator when k = 0,
  always adds the product of the point's two input blocks to it, and when k = 15 stores accumulator plus
  bias row into the output block. So a point is in exactly one of three cases: k = 0 (clear and add),
  0 < k < 15 (add), k = 15 (add and store).
-/
import proofs.«124082_j4320737100212_2_alg».proof.Proof.Gen.KernelIdeal.Launch
import proofs.«124082_j4320737100212_2_alg».proof.Proof.Gen.KernelIdeal.Skeleton
import proofs.«124082_j4320737100212_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- "k = 0", as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "k = 15", as the body computes it. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle; the output is idle, and not written back, exactly where k ≠ 15. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The staging buffers the pipeline passes at point t, and the accumulator. -/
abbrev ms1_0 (t : Fin cfg1.N) : Memref sig .tc .vmem S1024x256 .f32 := win1_0.stage (cfg1.slots t 0)
abbrev hs1_0 (t : Fin cfg1.N) : (ms1_0 t).IsWhole := Facts₀.hstage1_0 ((cfg1.slots t 0).cast Facts₀.nbuf1_0)
abbrev ms1_1 (t : Fin cfg1.N) : Memref sig .tc .vmem S256x2048 .bf16 := win1_1.stage (cfg1.slots t 1)
abbrev hs1_1 (t : Fin cfg1.N) : (ms1_1 t).IsWhole := Facts₀.hstage1_1 ((cfg1.slots t 1).cast Facts₀.nbuf1_1)
abbrev ms1_2 (t : Fin cfg1.N) : Memref sig .tc .vmem S1x2048 .f32 := win1_2.stage (cfg1.slots t 2)
abbrev hs1_2 (t : Fin cfg1.N) : (ms1_2 t).IsWhole := Facts₀.hstage1_2 ((cfg1.slots t 2).cast Facts₀.nbuf1_2)
abbrev ms1_3 (t : Fin cfg1.N) : Memref sig .tc .vmem S1024x2048 .f32 := win1_3.stage (cfg1.slots t 3)
abbrev hs1_3 (t : Fin cfg1.N) : (ms1_3 t).IsWhole := Facts₀.hstage1_3 ((cfg1.slots t 3).cast Facts₀.nbuf1_3)
abbrev scM1 : Memref sig .tc .vmem S1024x2048 .f32 := Memref.whole cc1_scratch0
abbrev VS1 : View sig .tc .vmem S1024x2048 .f32 := scM1.view
abbrev VO1_3 : View sig .tc .vmem S1024x2048 .f32 := (Memref.whole cc1_stg3_0 : Memref sig .tc .vmem S1024x2048 .f32).view

/-- The other call's four staging buffers, each whole at some contents: scoped memory this call never touches. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- Before the first point the call holds: that scoped memory, the accumulator at some contents, the generator register. -/
theorem PhiA1_le (c : Dev nD) :
    (Pipeline.ΦA spec1 c : sProp 𝕄) ⊢ iprop(other1 c ∗ (∃ d, owns (c : Thread nD τ) scM1 fullShare d) ∗ (∃ r, prngReg c r)) := by
  unfold Pipeline.ΦA other1; rw [scopedRest1_eq]
  iintro ⟨⟨H0, H1, H2, H3, ⟨%f, HS⟩⟩, Hg⟩
  isplitl [H0 H1 H2 H3]
  · isplitl [H0]; · iexact H0
    isplitl [H1]; · iexact H1
    isplitl [H2]; · iexact H2
    iexact H3
  isplitl [HS]
  · iexists f; rw [owns_whole]; iexact HS
  iexact Hg

theorem PhiA1_ge (c : Dev nD) :
    iprop(other1 c ∗ (∃ d, owns (c : Thread nD τ) scM1 fullShare d) ∗ (∃ r, prngReg c r)) ⊢ (Pipeline.ΦA spec1 c : sProp 𝕄) := by
  unfold Pipeline.ΦA other1; rw [scopedRest1_eq]
  simp only [scM1, owns_whole]
  iintro ⟨⟨H0, H1, H2, H3⟩, ⟨%d, HS⟩, Hg⟩
  isplitr [Hg]
  · isplitl [H0]; · iexact H0
    isplitl [H1]; · iexact H1
    isplitl [H2]; · iexact H2
    isplitl [H3]; · iexact H3
    iexists d; iexact HS
  iexact Hg

end Cert.KernelIdeal.Hand

end
-- ==== Proof.KIMatmulRuns.lean ====
/-
  The matrix-product body run once per control case, on any whole staging buffers. In each case the body
  keeps its input buffers as they were and leaves the accumulator (and, when k = 15, the output buffer)
  holding the values its stores wrote; those stored pieces are found by running the body.
-/
import proofs.«124082_j4320737100212_2_alg».proof.Proof.KIMatmulShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: the accumulator, at anything, is cleared and the product of the two input blocks added. -/
noncomputable def kernelRun1_A (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- 0 < k < 15: the product of the two input blocks is added to the accumulator as the point before left it. -/
noncomputable def kernelRun1_B (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg7 fullShare xs0
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- k = 15: the product is added to the accumulator, and accumulator plus bias row stored into the output buffer. -/
noncomputable def kernelRun1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIRegionMatmul.lean ====
/-
  The second call (the tiled matrix product) as the pipeline runs it, at ANY contents V of the core's buffers
  on entry. The accumulator is carried from point to point: after point t it holds what the case of t stored
  into it — computed from the point's two input blocks alone when k = 0, and from them and what the point
  before left otherwise. The output's staging buffer is stored only when k = 15, from the accumulator and the
  bias block; elsewhere it is idle and is not written back.
-/
import proofs.«124082_j4320737100212_2_alg».proof.Proof.KIMatmulRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stores leave -/

theorem scover1_A (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) (y : S1024x2048.Idx) :
    ∃ pc ∈ (kernelRun1_A c i arg3 harg3 arg4 harg4 arg5 harg5 arg6 harg6 arg7 harg7 hc0 hc1 x0 x1).1, y ∈ pc.1.set :=
  View.cover_of_tiledL (kernelRun1_A c i arg3 harg3 arg4 harg4 arg5 harg5 arg6 harg6 arg7 harg7 hc0 hc1 x0 x1).1 S1024x2048.size (by sl_kernel_rfl) y

/-- The accumulator after a point with k = 0. -/
def sout1_A (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) : Vec F S1024x2048 .f32 :=
  VS1.read (Elt F) (VS1.writes (Elt F) VS1.junk (kernelRun1_A c i arg3 harg3 arg4 harg4 arg5 harg5 arg6 harg6 arg7 harg7 hc0 hc1 x0 x1).1)

theorem scover1_B (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) (y : S1024x2048.Idx) :
    ∃ pc ∈ (kernelRun1_B c i arg3 harg3 arg4 harg4 arg5 harg5 arg6 harg6 arg7 harg7 hc0 hc1 x0 x1 xs0).1, y ∈ pc.1.set :=
  View.cover_of_tiledL (kernelRun1_B c i arg3 harg3 arg4 harg4 arg5 harg5 arg6 harg6 arg7 harg7 hc0 hc1 x0 x1 xs0).1 S1024x2048.size (by sl_kernel_rfl) y

/-- The accumulator after a point with 0 < k < 15. -/
def sout1_B (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 xs0).1)

theorem cover1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- The output's staging buffer after a point with k = 15. -/
def out1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- The accumulator after a point with k = 15. -/
def sout1_C (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)

/-! ## The accumulator point by point -/

theorem nc1_of_k0 {t : Fin cfg1.N} (h0 : t.val % 16 = 0) : ¬cond1_1 (grid1.coords t) :=
  fun h => by have := (hcond1_1 t).mp h; omega
theorem nc0_of_ne {t : Fin cfg1.N} (h0 : ¬t.val % 16 = 0) : ¬cond1_0 (grid1.coords t) :=
  fun h => h0 ((hcond1_0 t).mp h)
theorem nc1_of_ne {t : Fin cfg1.N} (h1 : ¬t.val % 16 = 15) : ¬cond1_1 (grid1.coords t) :=
  fun h => h1 ((hcond1_1 t).mp h)

/-- One point's effect on the accumulator, given what the point before left. -/
def accStep (c : Dev nD) (t : Fin cfg1.N) (prev : Vec F S1024x2048 .f32) : Vec F S1024x2048 .f32 :=
  if h0 : t.val % 16 = 0 then
    sout1_A c (grid1.coords t) (ms1_0 t) (hs1_0 t) (ms1_1 t) (hs1_1 t) (ms1_2 t) (hs1_2 t) (ms1_3 t) (hs1_3 t) scM1 (Memref.isWhole_whole _) ((hcond1_0 t).mpr h0) (nc1_of_k0 h0) (iblk1 V c 0 t) (iblk1 V c 1 t)
  else if h1 : t.val % 16 = 15 then
    sout1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) prev
  else
    sout1_B c (grid1.coords t) (ms1_0 t) (hs1_0 t) (ms1_1 t) (hs1_1 t) (ms1_2 t) (hs1_2 t) (ms1_3 t) (hs1_3 t) scM1 (Memref.isWhole_whole _) (nc0_of_ne h0) (nc1_of_ne h1) (iblk1 V c 0 t) (iblk1 V c 1 t) prev

/-- What the accumulator holds after the point at position n. -/
def accAt (c : Dev nD) : (n : ℕ) → n < cfg1.N → Vec F S1024x2048 .f32
  | 0, hn => accStep V c ⟨0, hn⟩ (VS1.read (Elt F) VS1.junk)
  | n + 1, hn => accStep V c ⟨n + 1, hn⟩ (accAt c n (Nat.lt_of_succ_lt hn))

theorem accAt_pos (c : Dev nD) (t : Fin cfg1.N) (hz : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl hz
  | succ n => rfl

theorem accStep_A (c : Dev nD) (t : Fin cfg1.N) (prev : Vec F S1024x2048 .f32) (h0 : t.val % 16 = 0) :
    accStep V c t prev = sout1_A c (grid1.coords t) (ms1_0 t) (hs1_0 t) (ms1_1 t) (hs1_1 t) (ms1_2 t) (hs1_2 t) (ms1_3 t) (hs1_3 t) scM1 (Memref.isWhole_whole _) ((hcond1_0 t).mpr h0) (nc1_of_k0 h0) (iblk1 V c 0 t) (iblk1 V c 1 t) :=
  dif_pos h0
theorem accStep_B (c : Dev nD) (t : Fin cfg1.N) (prev : Vec F S1024x2048 .f32) (h0 : ¬t.val % 16 = 0) (h1 : ¬t.val % 16 = 15) :
    accStep V c t prev = sout1_B c (grid1.coords t) (ms1_0 t) (hs1_0 t) (ms1_1 t) (hs1_1 t) (ms1_2 t) (hs1_2 t) (ms1_3 t) (hs1_3 t) scM1 (Memref.isWhole_whole _) (nc0_of_ne h0) (nc1_of_ne h1) (iblk1 V c 0 t) (iblk1 V c 1 t) prev :=
  (dif_neg h0).trans (dif_neg h1)
theorem accStep_C (c : Dev nD) (t : Fin cfg1.N) (prev : Vec F S1024x2048 .f32) (h0 : ¬t.val % 16 = 0) (h1 : t.val % 16 = 15) :
    accStep V c t prev = sout1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) prev :=
  (dif_neg h0).trans (dif_pos h1)

theorem accAt_A (c : Dev nD) (t : Fin cfg1.N) (h0 : t.val % 16 = 0) :
    accAt V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) (nc1_of_k0 h0) (iblk1 V c 0 t) (iblk1 V c 1 t) := by
  obtain ⟨n, hn⟩ := t
  cases n with
  | zero => exact accStep_A V c ⟨0, hn⟩ _ h0
  | succ n => exact accStep_A V c ⟨n + 1, hn⟩ _ h0

/-- The accumulator as the point t finds it, for t not the first. -/
abbrev accBefore (c : Dev nD) (t : Fin cfg1.N) : Vec F S1024x2048 .f32 :=
  accAt V c (t.val - 1) (Nat.lt_of_le_of_lt (Nat.sub_le _ _) t.isLt)

/-- What the output's staging buffer holds after point t: stored when k = 15, otherwise of no consequence. -/
def outAt (c : Dev nD) (t : Fin cfg1.N) : Vec F S1024x2048 .f32 :=
  if h0 : t.val % 16 = 0 then VO1_3.read (Elt F) VO1_3.junk
  else if h1 : t.val % 16 = 15 then
    out1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) (accBefore V c t)
  else VO1_3.read (Elt F) VO1_3.junk

theorem outAt_C (c : Dev nD) (t : Fin cfg1.N) (h0 : ¬t.val % 16 = 0) (h1 : t.val % 16 = 15) :
    outAt V c t = out1_C c (grid1.coords t) (ms1_0 t) (hs1_0 t) (ms1_1 t) (hs1_1 t) (ms1_2 t) (hs1_2 t) (ms1_3 t) (hs1_3 t) scM1 (Memref.isWhole_whole _) (nc0_of_ne h0) ((hcond1_1 t).mpr h1) (iblk1 V c 0 t) (iblk1 V c 1 t) (iblk1 V c 2 t) (accBefore V c t) :=
  (dif_neg h0).trans (dif_pos h1)

/-! ## The invariant between points, and the proof data -/

/-- Before the point at position n: at first the scoped rest as the call finds it; afterwards the same with
    the accumulator at what the point before left. -/
def PhiS (c : Dev nD) : (n : ℕ) → n ≤ cfg1.N → sProp 𝕄
  | 0, _ => Pipeline.ΦA spec1 c
  | n + 1, hn => iprop(other1 c ∗ owns (c : Thread nD τ) scM1 fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(other1 c ∗ owns (c : Thread nD τ) scM1 fullShare (accAt V c n hn) ∗ (∃ r, prngReg c r)) := rfl
theorem PhiS_pos (c : Dev nD) (n : ℕ) (h : n ≤ cfg1.N) (hz : n ≠ 0) :
    PhiS V c n h = iprop(other1 c ∗ owns (c : Thread nD τ) scM1 fullShare (accAt V c (n - 1) (by omega)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 16 = 0
  · rw [Dat.leavesExact_idle (dat1 V c) 3 t (idleAt1_3 t (nc1_of_k0 h0)) (noFlush1_3 t (nc1_of_k0 h0))]
    rw [accAt_A V c t h0]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_le c) $$ HΦ
      icases HΦ' with ⟨Hoth, HS0, Hg⟩
      iapply ((kernelRun1_A c (grid1.coords t) _ _ _ _ _ _ _ _ _ _ ((hcond1_0 t).mpr h0) (nc1_of_k0 h0) (iblk1 V c 0 t) (iblk1 V c 1 t)).2 Set.univ _)
      isplitl [H0]; · iexact H0
      isplitl [H1]; · iexact H1
      isplitl [HS0]; · iexact HS0
      iintro ⟨H0, H1, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (nc1_of_k0 h0) (iblk1 V c 0 t) (iblk1 V c 1 t)).2 Set.univ _)
      isplitl [H0]; · iexact H0
      isplitl [H1]; · iexact H1
      isplitl [HS0]; · iexists _; iexact HS0
      iintro ⟨H0, H1, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A c _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [PhiS_castSucc V c t, PhiS_pos V c _ _ hz, accAt_pos V c t hz]
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [accStep_C V c t _ h0 h1, outAt_C V c t h0 h1]
      unfold out1_C sout1_C; (try dsimp only)
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (nc0_of_ne h0) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (nc1_of_ne h1)) (noFlush1_3 t (nc1_of_ne h1))]
      rw [accStep_B V c t _ h0 h1]
      unfold sout1_B; (try dsimp only)
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (nc0_of_ne h0) (nc1_of_ne h1) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B c _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the call is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- Forgetting what the accumulator holds gives the scoped rest back. -/
theorem forget_acc (c : Dev nD) (a : Vec F S1024x2048 .f32) :
    iprop(other1 c ∗ owns (c : Thread nD τ) scM1 fullShare a ∗ (∃ r, prngReg c r)) ⊢ (Pipeline.ΦA spec1 c : sProp 𝕄) :=
  (show iprop(other1 c ∗ owns (c : Thread nD τ) scM1 fullShare a ∗ (∃ r, prngReg c r))
      ⊢ (iprop(other1 c ∗ (∃ d, owns (c : Thread nD τ) scM1 fullShare d) ∗ (∃ r, prngReg c r)) : sProp 𝕄) from by
    iintro ⟨Hoth, HS0, Hg⟩
    isplitl [Hoth]; · iexact Hoth
    isplitl [HS0]; · iexists _; iexact HS0
    iexact Hg).trans (PhiA1_ge c)

/-- After the last point the invariant gives the scoped rest back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl, PhiS_pos V c _ _ hne]
  exact forget_acc c _

end Cert.KernelIdeal.Hand

end
-- ==== Proof.KIRun.lean ====
/-
  The whole program on one core: the ternarization call, the reshape of the bias vector to a row, the matrix
  product call. The contents of every unscoped buffer are followed from the launch memory through the three
  steps (a call leaves its arrays at what its write-backs make of them and every other buffer alone), and
  every weakly fair execution ends with each unscoped buffer at the last of these contents. The three
  argument arrays are read back through the steps to their launch contents.
-/
import proofs.«124082_j4320737100212_2_alg».proof.Proof.KIRegionTern
import proofs.«124082_j4320737100212_2_alg».proof.Proof.KIRegionMatmul

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first call's entry). -/
abbrev W0 : Dev nD → Valuation τ sig (Elt F) := fun c b => m (c, b)
abbrev VE0 : (c : Dev nD) → (b : Ref sig .tc) → Buf (Elt F) ((c : Thread nD τ).loc b) := fun c b => W0 m c b
/-- After the first call: its arrays at what its write-backs leave, the rest as entered. -/
def W1 (c : Dev nD) : Valuation τ sig (Elt F) :=
  Pipeline.withArrays spec0 c (W0 m c) fun w => (dat0 (VE0 m) c).arrAt w cfg0.N
theorem W1_arr (c : Dev nD) (w : Fin cfg0.W) :
    W1 m c (Proc.devRef .tc (Pipeline.arrRef spec0 w)) = (dat0 (VE0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VE1 : (c : Dev nD) → (b : Ref sig .tc) → Buf (Elt F) ((c : Thread nD τ).loc b) := fun c b => W1 m c b
theorem hF0 (c : Dev nD) (w : Fin cfg0.W) : (dat0 (VE0 m) c).arrAt w cfg0.N = VE1 m c (Pipeline.arrRef spec0 w) :=
  (W1_arr m c w).symm
theorem hrest0 (c : Dev nD) : ∀ b, b ∉ Finset.univ.image (Pipeline.arrRef spec0) → VE1 m c b = VE0 m c b :=
  fun b hb => W1_of_ne m c b fun w e => hb (Finset.mem_image.mpr ⟨w, Finset.mem_univ _, e⟩)

/-- After the reshape (the second call's entry). -/
abbrev W2 : Dev nD → Valuation τ sig (Elt F) := fun c => StableHlo.after hostOps1 (W1 m c)
abbrev VE2 : (c : Dev nD) → (b : Ref sig .tc) → Buf (Elt F) ((c : Thread nD τ).loc b) := fun c b => W2 m c b
/-- After the second call. -/
def W3 (c : Dev nD) : Valuation τ sig (Elt F) :=
  Pipeline.withArrays spec1 c (W2 m c) fun w => (dat1 (VE2 m) c).arrAt w cfg1.N
theorem W3_arr (c : Dev nD) (w : Fin cfg1.W) :
    W3 m c (Proc.devRef .tc (Pipeline.arrRef spec1 w)) = (dat1 (VE2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VE3 : (c : Dev nD) → (b : Ref sig .tc) → Buf (Elt F) ((c : Thread nD τ).loc b) := fun c b => W3 m c b
theorem hF1 (c : Dev nD) (w : Fin cfg1.W) : (dat1 (VE2 m) c).arrAt w cfg1.N = VE3 m c (Pipeline.arrRef spec1 w) :=
  (W3_arr m c w).symm
theorem hrest1 (c : Dev nD) : ∀ b, b ∉ Finset.univ.image (Pipeline.arrRef spec1) → VE3 m c b = VE2 m c b :=
  fun b hb => W3_of_ne m c b fun w e => hb (Finset.mem_image.mpr ⟨w, Finset.mem_univ _, e⟩)

/-! ## The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg0) := W1_of_ne m c main_arg0 (by decide)
    _ = m ((c : Thread nD τ).loc main_arg0) := rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (VE2 m) c).arrAt_in 0 rfl _).trans (A_eq1 (VE2 m) c 0))
    _ = m ((c : Thread nD τ).loc main_arg0) := W2_main_arg0 m c

theorem W1_main_arg1 (c : Dev nD) : W1 m c (Proc.devRef .tc main_arg1) = m ((c : Thread nD τ).loc main_arg1) :=
  (W1_arr m c 0).trans (((dat0 (VE0 m) c).arrAt_in 0 rfl _).trans (A_eq0 (VE0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := W1_main_arg1 m c

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m c (Proc.devRef .tc main_arg2) := W1_of_ne m c main_arg2 (by decide)
    _ = m ((c : Thread nD τ).loc main_arg2) := rfl

/-- The result array at the end is what the second call's write-backs leave in it. -/
theorem W3_main_v2 (c : Dev nD) : W3 m c (Proc.devRef .tc main_v2) = (dat1 (VE2 m) c).arrAt 3 cfg1.N :=
  W3_arr m c 3

/-- The second call finds the ternarized matrix as the first call's write-backs left it. -/
theorem W2_main_v0 (c : Dev nD) : W2 m c (Proc.devRef .tc main_v0) = (dat0 (VE0 m) c).arrAt 1 cfg0.N :=
  calc W2 m c (Proc.devRef .tc main_v0)
    _ = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = (dat0 (VE0 m) c).arrAt 1 cfg0.N := W1_arr m c 1

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (VE0 m) c
  | ⟨1, _⟩ => fun c => dat1 (VE2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_freshH : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VE0 m c) (VE1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generator register, with the scoped buffers the second call stages nothing in, is the class's invariant; -/
theorem reg1_in (c : Dev nD) :
    iprop((∃ r, prngReg c r) ∗ Pipeline.prefHeld (Ix := Unit) (Name := ℕ) (U := UR sig nD τ) (Lvl := ℕ) (pcfgs (F := F) 1).pre c (fun _ => fullShare) (admH (F := F) 1).1
      ∗ Pipeline.scopedRest (Ix := Unit) (Name := ℕ) (U := UR sig nD τ) (Lvl := ℕ) (Val := Elt F) spec1 c)
    ⊢ (Pipeline.ΦA spec1 c : sProp 𝕄) := by
  unfold Pipeline.ΦA
  iintro ⟨Hp, -, Hr⟩
  isplitl [Hr]; · iexact Hr
  iexact Hp
/-- and that invariant gives them back. -/
theorem reg1_out (c : Dev nD) :
    (Pipeline.ΦA spec1 c : sProp 𝕄)
    ⊢ iprop((∃ r, prngReg c r) ∗ Pipeline.ownSems0 (Ix := Unit) (Name := ℕ) (U := UR sig nD τ) (Lvl := ℕ) (Val := Elt F) (fun k : PEmpty => (k.elim : SemLoc sig)) c
      ∗ Pipeline.scopedRest (Ix := Unit) (Name := ℕ) (U := UR sig nD τ) (Lvl := ℕ) (Val := Elt F) spec1 c) := by
  rw [Pipeline.ownSems0_none]
  unfold Pipeline.ΦA
  iintro ⟨Hr, Hp⟩
  isplitl [Hp]; · iexact Hp
  isplitr; · iempintro
  iexact Hr

set_option backward.isDefEq.respectTransparency.types false in
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (reg1_in c).trans (show Pipeline.ΦA spec1 c ⊢ (pdats m 1 c).Φ 0 from hin1 (VE2 m) c)
  hout c := (show (pdats m 1 c).Φ (Fin.last _) ⊢ Pipeline.ΦA spec1 c from hout1 (VE2 m) c).trans (reg1_out c)
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VE2 m c) (VE3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdats m) () defs₀ 𝒱₀ L lv) :=
  [ .region (reg0 m),
    .host (hseg hostOps1 hostOps1_sub hostOps1_freshH (W1 m)),
    .region (reg1 m) ]
theorem main_run (c : Dev nD) : main (F := F) c = Pipeline.Seg.run (segsH m) := (main_chain c).trans (by chain_rfl)

set_option backward.isDefEq.respectTransparency.types false in
/-- Every weakly fair execution of the program from memory m terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Hand

end
-- ==== Proof.KIMatmulPieces.lean ====
/-
  What each control case of the matrix-product body leaves, as a value: the accumulator ends at
  "accumulator found + product of the two input blocks" (the accumulator found being the zero block when
  k = 0), and when k = 15 the output block ends at "that accumulator + the bias row, broadcast down the rows".
  Every load of the body reads a whole buffer through a rectangle at offset zero, so it reads the buffer's
  contents; a load that follows a store of the same buffer reads what was stored.
-/
import proofs.«124082_j4320737100212_2_alg».proof.Proof.KIRegionMatmul
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- 0 < k < 15: accumulator found plus product. -/
theorem sout1_B_eq (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S256x2048 .bf16) (xs0 : Vec F S1024x2048 .f32) :
    sout1_B c i arg3 harg3 arg4 harg4 arg5 harg5 arg6 harg6 arg7 harg7 hc0 hc1 x0 x1 xs0 = k1_pay2 x0 x1 xs0 := by
  unfold sout1_B
  rw [View.read_writes_eq_canon _ _ _ (scover1_B c i arg3 harg3 arg4 harg4 arg5 harg5 arg6 harg6 arg7 harg7 hc0 hc1 x0 x1 xs0)]
  unfold kernelRun1_B
  dsimp only
  rw [View.canon_unit_zero hz]
  simp only [View.readAt_eq_ld, harg3.read_unread, harg4.read_unread, harg5.read_unread, harg7.read_unread, View.ld_unit_zero (S := S1024x256) hz, View.ld_unit_zero (S := S256x2048) hz, View.ld_unit_zero (S := S1x2048) hz, View.ld_unit_zero (S := S1024x2048) hz]

/-- k = 0: the zero block plus product. -/
theorem sout1_A_eq (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S256x2048 .bf16) :
    sout1_A c i arg3 harg3 arg4 harg4 arg5 harg5 arg6 harg6 arg7 harg7 hc0 hc1 x0 x1 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1)]
  unfold kernelRun1_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread, View.ld_unit_zero (S := S1024x256) hz, View.ld_unit_zero (S := S256x2048) hz, View.ld_unit_zero (S := S1x2048) hz, View.ld_unit_zero (S := S1024x2048) hz]

/-- k = 15, the accumulator: accumulator found plus product. -/
theorem sout1_C_eq (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg5.read_unread, harg7.read_unread, View.ld_unit_zero (S := S1024x256) hz, View.ld_unit_zero (S := S256x2048) hz, View.ld_unit_zero (S := S1x2048) hz, View.ld_unit_zero (S := S1024x2048) hz]

/-- k = 15, the output block: the new accumulator plus the bias row. -/
theorem out1_C_eq (c : Dev nD) (i : grid1.Coords) (arg3 : Memref sig .tc .vmem S1024x256 .f32) (harg3 : arg3.IsWhole) (arg4 : Memref sig .tc .vmem S256x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S256x2048 .bf16) (x2 : Vec F S1x2048 .f32) (xs0 : Vec F S1024x2048 .f32) :
    out1_C c i arg3 harg3 arg4 harg4 arg5 harg5 arg6 harg6 arg7 harg7 hc0 hc1 x0 x1 x2 xs0 = k1_pay3 (k1_pay2 x0 x1 xs0) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  rw [View.canon_unit_zero hz]
  sl_unfold_words
  rw [View.readCov_unit_zero (S := S1024x2048) _ hz]
  simp only [View.readAt_eq_ld, harg3.read_unread, harg4.read_unread, harg5.read_unread, harg7.read_unread, View.ld_unit_zero (S := S1024x256) hz, View.ld_unit_zero (S := S256x2048) hz, View.ld_unit_zero (S := S1x2048) hz, View.ld_unit_zero (S := S1024x2048) hz]

end Cert.KernelIdeal.Hand

end
-- ==== Proof.KIPayMatmul.lean ====
/-
  The three values the body of the tiled matrix product stores, each read at one entry (p, q) of its
  1024 × 2048 block, with floats read as extended reals. There a change of float format and a shape
  cast to the same shape are the identity, and a matrix product into the zero accumulator is the plain
  sum of products over the contraction axis. So:
    the cleared accumulator is 0 everywhere;
    the updated accumulator at (p, q) is its old value there plus the sum over kk < 256 of
      (left block at (p, kk)) * (right block at (kk, q));
    the stored result at (p, q) is the accumulator there plus the bias row's entry q.
-/
import proofs.«124082_j4320737100212_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The value the accumulator is cleared to: the zero word splat, which is the extended real 0 at
    every entry (the cast to the same shape changes nothing). -/
theorem zero_apply (j : S1024x2048.Idx) : k1_pay1 (F := Ideal) j = 0 := by
  unfold k1_pay1
  simp only [shapeCast_self]
  exact Ideal.ofBits_zero_f32

/-- The left operand's row coordinate at output entry j is j's row, whatever the contraction coordinate. -/
theorem lhsIdx_0 (j : S1024x2048.Idx) (c : dot_S1024x256_S256x2048_S1024x2048_1_0_0_1_n_n.contr.Idx) :
    (dot_S1024x256_S256x2048_S1024x2048_1_0_0_1_n_n.lhsIdx j c 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl

/-- The right operand's column coordinate at output entry j is j's column, whatever the contraction coordinate. -/
theorem rhsIdx_1 (j : S1024x2048.Idx) (c : dot_S1024x256_S256x2048_S1024x2048_1_0_0_1_n_n.contr.Idx) :
    (dot_S1024x256_S256x2048_S1024x2048_1_0_0_1_n_n.rhsIdx j c 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The left operand's coordinates at output entry (p, q) and contraction coordinate kk: (p, kk). -/
theorem lhsIdx_eq (p : Fin 1024) (q : Fin 2048) (kk : Fin 256) :
    dot_S1024x256_S256x2048_S1024x2048_1_0_0_1_n_n.lhsIdx (ix2 p q)
        ((contrEquiv1 dot_S1024x256_S256x2048_S1024x2048_1_0_0_1_n_n 256 rfl rfl).symm kk)
      = (ix2 p kk : S1024x256.Idx) := by
  have hk := contrEquiv1_symm_val dot_S1024x256_S256x2048_S1024x2048_1_0_0_1_n_n 256 rfl rfl kk
  refine funext fun a => Fin.ext ?_
  match a with
  | ⟨0, _⟩ => exact lhsIdx_0 _ _
  | ⟨1, _⟩ =>
    exact (dot_S1024x256_S256x2048_S1024x2048_1_0_0_1_n_n.lhsIdx_val_of_single rfl (ix2 p q) _).trans hk

/-- The right operand's coordinates at output entry (p, q) and contraction coordinate kk: (kk, q). -/
theorem rhsIdx_eq (p : Fin 1024) (q : Fin 2048) (kk : Fin 256) :
    dot_S1024x256_S256x2048_S1024x2048_1_0_0_1_n_n.rhsIdx (ix2 p q)
        ((contrEquiv1 dot_S1024x256_S256x2048_S1024x2048_1_0_0_1_n_n 256 rfl rfl).symm kk)
      = (ix2 kk q : S256x2048.Idx) := by
  have hk := contrEquiv1_symm_val dot_S1024x256_S256x2048_S1024x2048_1_0_0_1_n_n 256 rfl rfl kk
  refine funext fun a => Fin.ext ?_
  match a with
  | ⟨0, _⟩ =>
    exact (dot_S1024x256_S256x2048_S1024x2048_1_0_0_1_n_n.rhsIdx_val_of_single rfl (ix2 p q) _).trans hk
  | ⟨1, _⟩ => exact rhsIdx_1 _ _

/-- The updated accumulator at (p, q): the old accumulator there plus the sum over the 256 contraction
    coordinates of the products of the left block's row p and the right block's column q. -/
theorem acc_apply (v3 : Vec Ideal S1024x256 .f32) (v5 : Vec Ideal S256x2048 .bf16) (v7 : Vec Ideal S1024x2048 .f32)
    (p : Fin 1024) (q : Fin 2048) :
    k1_pay2 v3 v5 v7 (ix2 p q) = v7 (ix2 p q) + ∑ kk : Fin 256, v3 (ix2 p kk) * v5 (ix2 kk q) := by
  unfold k1_pay2
  simp only [shapeCast_self]
  rw [addf_apply]
  refine congrArg (v7 (ix2 p q) + ·) ?_
  simp only [matmul]
  rw [Ideal.matmul_constant_zero_apply,
    ← Equiv.sum_comp (contrEquiv1 dot_S1024x256_S256x2048_S1024x2048_1_0_0_1_n_n 256 rfl rfl).symm]
  refine Finset.sum_congr rfl fun kk _ => ?_
  rw [lhsIdx_eq, rhsIdx_eq, truncf_apply]

/-- The stored result at (p, q): the accumulator there plus the bias row's entry q (the one row is
    repeated down the 1024 rows). -/
theorem bias_apply (v16 : Vec Ideal S1024x2048 .f32) (v17 : Vec Ideal S1x2048 .f32) (p : Fin 1024) (q : Fin 2048) :
    k1_pay3 v16 v17 (ix2 p q) = v16 (ix2 p q) + v17 (ix2 0 q) := by
  unfold k1_pay3
  simp only [shapeCast_self]
  rw [addf_apply, broadcastTo_1b_ab_apply]

end Cert.KernelIdeal.Pay

end
-- ==== Proof.LibBlockSums.lean ====
/-
  Two regroupings of finite sums that a tiled, padded matrix product needs.

  A product accumulated block by block along the contracted axis is the whole product: summing over `p` blocks and,
  inside each, over `q` positions visits every index below `p * q` once, as `k * q + j`. And a contraction over an
  axis padded from `n` to `n'` entries is the contraction over the first `n` when every padded term is zero.
-/
import Mathlib.Algebra.BigOperators.Fin
import Mathlib.Algebra.BigOperators.Group.Finset.Basic
import Mathlib.Logic.Equiv.Fin.Basic
import Mathlib.Tactic.Ring

namespace Cert.Lib.BlockSums

open Finset

variable {M : Type*} [AddCommMonoid M]

/-- Summing block by block: `p` blocks of `q` consecutive indices are the indices below `p * q`. -/
theorem sum_blocks (p q : ℕ) (f : ℕ → M) :
    ∑ k : Fin p, ∑ j : Fin q, f (k.val * q + j.val) = ∑ i : Fin (p * q), f i.val := by
  rw [← Finset.sum_product', Finset.univ_product_univ]
  refine Fintype.sum_equiv (finProdFinEquiv (m := p) (n := q)) _ _ fun x => ?_
  obtain ⟨k, j⟩ := x
  show f (k.val * q + j.val) = f (finProdFinEquiv (k, j)).val
  congr 1
  rw [finProdFinEquiv_apply_val]
  ring

/-- A sum over a padded range whose padding contributes nothing is the sum over the unpadded range. -/
theorem sum_padded {n n' : ℕ} (h : n ≤ n') (f : ℕ → M) (hz : ∀ i, n ≤ i → i < n' → f i = 0) :
    ∑ i : Fin n', f i.val = ∑ i : Fin n, f i.val := by
  rw [Fin.sum_univ_eq_sum_range (fun i => f i) n', Fin.sum_univ_eq_sum_range (fun i => f i) n]
  refine (Finset.sum_subset (Finset.range_mono h) fun i hi hni => ?_).symm
  exact hz i (by simpa using hni) (Finset.mem_range.mp hi)

end Cert.Lib.BlockSums
-- ==== Proof.KIMatmulSums.lean ====
/-
  The second call's value at the ideal instance, first half: where its blocks sit and what sums they make.
  Grid point t = (i·2 + j)·16 + k reads block (i, k) of x (1024 × 256), block (k, j) of the ternarized
  matrix (256 × 2048) and block (0, j) of the bias row (1 × 2048), and writes block (i, j) of the result
  (1024 × 2048). Entry (p, q) of the product of the point's two input blocks is the k-th stretch of 256 terms
  of the full contraction  Σ_K x[1024·i+p, K] · w[K, 2048·j+q];  sixteen such stretches are the whole sum.
-/
import proofs.«124082_j4320737100212_2_alg».proof.Proof.KIMatmulPieces
import proofs.«124082_j4320737100212_2_alg».proof.Proof.KIPayMatmul
import proofs.«124082_j4320737100212_2_alg».proof.Proof.LibBlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

/-- The printed index maps in closed form, decided over the 256 grid points. -/
theorem idx_facts1 : ∀ t : Fin cfg1.N,
    win1_0.index t (0 : Fin 2) = t.val / 32 ∧ win1_0.index t (1 : Fin 2) = t.val % 16
  ∧ win1_1.index t (0 : Fin 2) = t.val % 16 ∧ win1_1.index t (1 : Fin 2) = t.val / 16 % 2
  ∧ win1_2.index t (0 : Fin 2) = 0 ∧ win1_2.index t (1 : Fin 2) = t.val / 16 % 2
  ∧ win1_3.index t (0 : Fin 2) = t.val / 32 ∧ win1_3.index t (1 : Fin 2) = t.val / 16 % 2 :=
  (by decide +kernel : ∀ t : Fin grid1.N, _)

/-! ## One term of the contraction, total on the naturals, and its partial sums over K-blocks -/

/-- x[r, K] · w[K, cq], zero outside the arrays. -/
def fterm (X : S8192x4096.Idx → EReal) (T : S4096x4096.Idx → EReal) (r cq K : ℕ) : EReal :=
  if h : r < 8192 ∧ cq < 4096 ∧ K < 4096 then X (ix2 ⟨r, h.1⟩ ⟨K, h.2.2⟩) * T (ix2 ⟨K, h.2.2⟩ ⟨cq, h.2.1⟩) else 0

/-- The sum of the first n stretches of 256 terms. -/
def partialSum (X : S8192x4096.Idx → EReal) (T : S4096x4096.Idx → EReal) (r cq n : ℕ) : EReal :=
  ∑ k' ∈ Finset.range n, ∑ kk : Fin 256, fterm X T r cq (k' * 256 + kk.val)

theorem partialSum_succ (X : S8192x4096.Idx → EReal) (T : S4096x4096.Idx → EReal) (r cq n : ℕ) :
    partialSum X T r cq (n + 1) = partialSum X T r cq n + ∑ kk : Fin 256, fterm X T r cq (n * 256 + kk.val) :=
  Finset.sum_range_succ _ n

theorem partialSum_one (X : S8192x4096.Idx → EReal) (T : S4096x4096.Idx → EReal) (r cq : ℕ) :
    partialSum X T r cq 1 = ∑ kk : Fin 256, fterm X T r cq (0 * 256 + kk.val) := by
  unfold partialSum; rw [Finset.sum_range_one]

/-- Sixteen stretches are the whole contraction. -/
theorem partialSum_full (X : S8192x4096.Idx → EReal) (T : S4096x4096.Idx → EReal) (r cq : ℕ) (hr : r < 8192) (hcq : cq < 4096) :
    partialSum X T r cq 16 = ∑ K : Fin 4096, X (ix2 ⟨r, hr⟩ K) * T (ix2 K ⟨cq, hcq⟩) := by
  unfold partialSum
  rw [Finset.sum_range (fun k' => ∑ kk : Fin 256, fterm X T r cq (k' * 256 + kk.val))]
  rw [Cert.Lib.BlockSums.sum_blocks 16 256 (fterm X T r cq)]
  show ∑ K : Fin 4096, fterm X T r cq K.val = _
  refine Finset.sum_congr rfl fun K _ => ?_
  unfold fterm
  rw [dif_pos ⟨hr, hcq, K.isLt⟩]

end Cert.KernelIdeal.Hand

end
-- ==== Proof.KIMatmulValue.lean ====
/-
  The second call's value at the ideal instance, second half: the result array it leaves. By induction on
  the grid point the accumulator holds, after the point with coordinates (i, j, k), the first k+1 stretches
  of the contraction for rows 1024·i … and columns 2048·j …; the point with k = 15 therefore writes back the
  whole contraction plus the bias, and those sixteen write-backs tile the result array.
-/
import proofs.«124082_j4320737100212_2_alg».proof.Proof.KIMatmulSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b)) (c : Dev nD)

/-- The three arrays the call reads, as it finds them. -/
abbrev arrX : S8192x4096.Idx → EReal := V c main_arg0
abbrev arrT : S4096x4096.Idx → EReal := V c main_v0
abbrev arrB : S1x4096.Idx → EReal := V c main_v1

theorem tlt (t : Fin cfg1.N) : t.val < 256 := lt_of_lt_of_eq t.isLt N_1

/-- The point's three input blocks, at their literal shapes. -/
abbrev xb (t : Fin cfg1.N) : Vec Ideal S1024x256 .f32 := iblk1 V c 0 t
abbrev wb (t : Fin cfg1.N) : Vec Ideal S256x2048 .bf16 := iblk1 V c 1 t
abbrev bb (t : Fin cfg1.N) : Vec Ideal S1x2048 .f32 := iblk1 V c 2 t

/-! ## The blocks' entries, read off the arrays -/

theorem blkX (t : Fin cfg1.N) (p : Fin 1024) (kk : Fin 256) :
    xb V c t (ix2 p kk) = arrX V c (ix2 ⟨t.val / 32 * 1024 + p.val, by have := tlt t; omega⟩ ⟨t.val % 16 * 256 + kk.val, by omega⟩) := by
  show V c main_arg0 (((cfg1.win 0).blk t).view.emb (ix2 p kk)) = V c main_arg0 _
  congr 1
  funext a; apply Fin.ext
  obtain ⟨e0, e1, -⟩ := idx_facts1 t
  match a with
  | ⟨0, _⟩ => show win1_0.index t (0 : Fin 2) * 1024 + 1 * p.val = t.val / 32 * 1024 + p.val; rw [e0]; omega
  | ⟨1, _⟩ => show win1_0.index t (1 : Fin 2) * 256 + 1 * kk.val = t.val % 16 * 256 + kk.val; rw [e1]; omega

theorem blkT (t : Fin cfg1.N) (kk : Fin 256) (q : Fin 2048) :
    wb V c t (ix2 kk q) = arrT V c (ix2 ⟨t.val % 16 * 256 + kk.val, by omega⟩ ⟨t.val / 16 % 2 * 2048 + q.val, by omega⟩) := by
  show V c main_v0 (((cfg1.win 1).blk t).view.emb (ix2 kk q)) = V c main_v0 _
  congr 1
  funext a; apply Fin.ext
  obtain ⟨-, -, e2, e3, -⟩ := idx_facts1 t
  match a with
  | ⟨0, _⟩ => show win1_1.index t (0 : Fin 2) * 256 + 1 * kk.val = t.val % 16 * 256 + kk.val; rw [e2]; omega
  | ⟨1, _⟩ => show win1_1.index t (1 : Fin 2) * 2048 + 1 * q.val = t.val / 16 % 2 * 2048 + q.val; rw [e3]; omega

theorem blkB (t : Fin cfg1.N) (q : Fin 2048) :
    bb V c t (ix2 (0 : Fin 1) q) = arrB V c (ix2 (0 : Fin 1) ⟨t.val / 16 % 2 * 2048 + q.val, by omega⟩) := by
  show V c main_v1 (((cfg1.win 2).blk t).view.emb (ix2 (0 : Fin 1) q)) = V c main_v1 _
  congr 1
  funext a; apply Fin.ext
  obtain ⟨-, -, -, -, e4, e5, -⟩ := idx_facts1 t
  match a with
  | ⟨0, _⟩ => show win1_2.index t (0 : Fin 2) * 1 + 1 * (0 : Fin 1).val = (0 : Fin 1).val; rw [e4]; simp
  | ⟨1, _⟩ => show win1_2.index t (1 : Fin 2) * 2048 + 1 * q.val = t.val / 16 % 2 * 2048 + q.val; rw [e5]; omega

/-- Entry (p, q) of the product of the point's two input blocks is the point's stretch of the contraction. -/
theorem blockterm (t : Fin cfg1.N) (p : Fin 1024) (q : Fin 2048) :
    ∑ kk : Fin 256, xb V c t (ix2 p kk) * wb V c t (ix2 kk q)
      = ∑ kk : Fin 256, fterm (arrX V c) (arrT V c) (t.val / 32 * 1024 + p.val) (t.val / 16 % 2 * 2048 + q.val) (t.val % 16 * 256 + kk.val) :=
  Finset.sum_congr rfl fun kk _ => by
    have ht := tlt t
    refine (congrArg₂ (· * ·) (blkX V c t p kk) (blkT V c t kk q)).trans ?_
    unfold fterm
    rw [dif_pos ⟨by omega, by omega, by omega⟩]

/-- One point's effect on entry (p, q) of the accumulator. -/
theorem step (t : Fin cfg1.N) (prev : Vec Ideal S1024x2048 .f32) (p : Fin 1024) (q : Fin 2048) :
    k1_pay2 (xb V c t) (wb V c t) prev (ix2 p q)
      = prev (ix2 p q) + ∑ kk : Fin 256, fterm (arrX V c) (arrT V c) (t.val / 32 * 1024 + p.val) (t.val / 16 % 2 * 2048 + q.val) (t.val % 16 * 256 + kk.val) :=
  (acc_apply _ _ _ p q).trans (congrArg (prev (ix2 p q) + ·) (blockterm V c t p q))

/-! ## The accumulator, point by point -/

theorem acc_inv (n : ℕ) : ∀ (h : n < cfg1.N) (p : Fin 1024) (q : Fin 2048),
    accAt V c n h (ix2 p q) = partialSum (arrX V c) (arrT V c) (n / 32 * 1024 + p.val) (n / 16 % 2 * 2048 + q.val) (n % 16 + 1) := by
  induction n using Nat.strong_induction_on with
  | _ n ih =>
    intro h p q
    by_cases h0 : n % 16 = 0
    · refine (congrFun (accAt_A V c ⟨n, h⟩ h0) (ix2 p q)).trans ?_
      refine (congrFun (sout1_A_eq c _ _ _ _ _ _ _ _ _ _ _ _ _ _ _) (ix2 p q)).trans ?_
      refine (step V c ⟨n, h⟩ _ p q).trans ?_
      rw [zero_apply, zero_add]
      show ∑ kk : Fin 256, fterm (arrX V c) (arrT V c) (n / 32 * 1024 + p.val) (n / 16 % 2 * 2048 + q.val) (n % 16 * 256 + kk.val) = _
      rw [h0]
      exact (partialSum_one _ _ _ _).symm
    · have hz : n ≠ 0 := fun e => h0 (by rw [e])
      have e1 : (n - 1) / 32 = n / 32 := by omega
      have e2 : (n - 1) / 16 = n / 16 := by omega
      have e3 : (n - 1) % 16 + 1 = n % 16 := by omega
      have hprev := ih (n - 1) (by omega) (Nat.lt_of_le_of_lt (Nat.sub_le _ _) h) p q
      rw [e1, e2, e3] at hprev
      refine (congrFun (accAt_pos V c ⟨n, h⟩ hz) (ix2 p q)).trans ?_
      by_cases h1 : n % 16 = 15
      · refine (congrFun (accStep_C V c ⟨n, h⟩ _ h0 h1) (ix2 p q)).trans ?_
        refine (congrFun (sout1_C_eq c _ _ _ _ _ _ _ _ _ _ _ _ _ _ _ _ _) (ix2 p q)).trans ?_
        refine (step V c ⟨n, h⟩ _ p q).trans ?_
        show accAt V c (n - 1) _ (ix2 p q) + ∑ kk : Fin 256, fterm (arrX V c) (arrT V c) (n / 32 * 1024 + p.val) (n / 16 % 2 * 2048 + q.val) (n % 16 * 256 + kk.val) = _
        rw [hprev]
        exact (partialSum_succ _ _ _ _ _).symm
      · refine (congrFun (accStep_B V c ⟨n, h⟩ _ h0 h1) (ix2 p q)).trans ?_
        refine (congrFun (sout1_B_eq c _ _ _ _ _ _ _ _ _ _ _ _ _ _ _ _) (ix2 p q)).trans ?_
        refine (step V c ⟨n, h⟩ _ p q).trans ?_
        show accAt V c (n - 1) _ (ix2 p q) + ∑ kk : Fin 256, fterm (arrX V c) (arrT V c) (n / 32 * 1024 + p.val) (n / 16 % 2 * 2048 + q.val) (n % 16 * 256 + kk.val) = _
        rw [hprev]
        exact (partialSum_succ _ _ _ _ _).symm

/-! ## The result array -/

/-- The whole contraction plus the bias, index by index. -/
def G1 (X : S8192x4096.Idx → EReal) (T : S4096x4096.Idx → EReal) (B : S1x4096.Idx → EReal) : S8192x4096.Idx → EReal :=
  fun idx => (∑ K : Fin 4096, X (ix2 (idx 0) K) * T (ix2 K (idx 1))) + B (ix2 (0 : Fin 1) (idx 1))

/-- What the point with k = 15 leaves in the output block, entry by entry. -/
theorem out_entry (t : Fin cfg1.N) (h0 : ¬t.val % 16 = 0) (h1 : t.val % 16 = 15) (p : Fin 1024) (q : Fin 2048) :
    outAt V c t (ix2 p q)
      = G1 (arrX V c) (arrT V c) (arrB V c) (ix2 ⟨t.val / 32 * 1024 + p.val, by have := tlt t; omega⟩ ⟨t.val / 16 % 2 * 2048 + q.val, by omega⟩) := by
  have ht := tlt t
  have hz : t.val ≠ 0 := fun e => h0 (by rw [e])
  have e1 : (t.val - 1) / 32 = t.val / 32 := by omega
  have e2 : (t.val - 1) / 16 = t.val / 16 := by omega
  have e3 : (t.val - 1) % 16 + 1 = 15 := by omega
  have hprev := acc_inv V c (t.val - 1) (Nat.lt_of_le_of_lt (Nat.sub_le _ _) t.isLt) p q
  rw [e1, e2, e3] at hprev
  refine (congrFun (outAt_C V c t h0 h1) (ix2 p q)).trans ?_
  refine (congrFun (out1_C_eq c _ _ _ _ _ _ _ _ _ _ _ _ _ _ _ _ _) (ix2 p q)).trans ?_
  refine (bias_apply _ _ p q).trans ?_
  refine (congrArg₂ (· + ·) (step V c t _ p q) (blkB V c t q)).trans ?_
  show (accAt V c (t.val - 1) _ (ix2 p q) + ∑ kk : Fin 256, fterm (arrX V c) (arrT V c) (t.val / 32 * 1024 + p.val) (t.val / 16 % 2 * 2048 + q.val) (t.val % 16 * 256 + kk.val)) + _ = _
  rw [hprev, h1, ← partialSum_succ, partialSum_full _ _ _ _ (by omega) (by omega)]
  rfl

/-- What a flushing point writes back is its block of the whole-array function. -/
theorem flushed1_eq (t : Fin cfg1.N) (hf : (cfg1.win 3).flush t = true) :
    (dat1 V c).flushed 3 t = ((cfg1.win 3).blk t).view.read (Elt Ideal) (G1 (arrX V c) (arrT V c) (arrB V c)) := by
  have h1 : t.val % 16 = 15 := (flush1_3 t).mp hf
  have h0 : ¬t.val % 16 = 0 := by omega
  show (cfg1.win 3).cut (grid1.coords t) ((dat1 V c).after 3 t) = _
  rw [after1_3]
  funext y
  obtain ⟨p, q, rfl⟩ : ∃ (p : Fin 1024) (q : Fin 2048), y = ix2 p q := ⟨y 0, y 1, eq_ix2 y⟩
  refine (out_entry V c t h0 h1 p q).trans ?_
  show G1 (arrX V c) (arrT V c) (arrB V c) _ = G1 (arrX V c) (arrT V c) (arrB V c) (((cfg1.win 3).blk t).view.emb (ix2 p q))
  congr 1
  funext a; apply Fin.ext
  obtain ⟨-, -, -, -, -, -, e6, e7⟩ := idx_facts1 t
  match a with
  | ⟨0, _⟩ => show t.val / 32 * 1024 + p.val = win1_3.index t (0 : Fin 2) * 1024 + 1 * p.val; rw [e6]; omega
  | ⟨1, _⟩ => show t.val / 16 % 2 * 2048 + q.val = win1_3.index t (1 : Fin 2) * 2048 + 1 * q.val; rw [e7]; omega

/-- An index of the result array is in point t's block iff each coordinate is in the block's range. -/
theorem mem_blk1 (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v2).slice (win1_3.rect t)).set ↔ _
  rw [View.set_slice_whole, Rect.mem_set_unit]
  exact Iff.rfl

/-- Every index of the result array is in the block of some flushing point. -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 256 := N_1
  let t : Fin cfg1.N := ⟨((i 0).val / 1024 * 2 + (i 1).val / 2048) * 16 + 15, by omega⟩
  have htv : t.val = ((i 0).val / 1024 * 2 + (i 1).val / 2048) * 16 + 15 := rfl
  refine ⟨t, (flush1_3 t).mpr (by omega), ?_⟩
  rw [mem_blk1]
  obtain ⟨-, -, -, -, -, -, e6, e7⟩ := idx_facts1 t
  intro a
  match a with
  | ⟨0, _⟩ => show win1_3.index t (0 : Fin 2) * 1024 ≤ (i 0).val ∧ (i 0).val < win1_3.index t (0 : Fin 2) * 1024 + 1024; rw [e6]; omega
  | ⟨1, _⟩ => show win1_3.index t (1 : Fin 2) * 2048 ≤ (i 1).val ∧ (i 1).val < win1_3.index t (1 : Fin 2) * 2048 + 2048; rw [e7]; omega

/-- The result array after the call. -/
theorem final1 : (dat1 V c).arrAt 3 cfg1.N = G1 (arrX V c) (arrT V c) (arrB V c) :=
  (dat1 V c).arrAt_eq_of_cover 3 (G1 (arrX V c) (arrT V c) (arrB V c)) (fun t hf => flushed1_eq V c t hf) (cover1)

end Cert.KernelIdeal.Hand

end
-- ==== Proof.KIPayCols.lean ====
/-
  Three readings at one entry that a row-wise reduction with the reduced axis kept needs, for arrays of
  any element type: a vector of a entries viewed as an a × 1 column reads, at (i, 0), its entry i; an
  a × 1 column repeated along b lanes reads, at (p, c), the column's entry p; and, at the extended reals,
  the sum of a 256 × 4096 array along its lanes reads, at row p, the sum over k < 4096 of the entries (p, k).
-/
import proofs.«124082_j4320737100212_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

section Columns
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (when `a = 1` it is `0` anyway) and the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The sum of a 256 × 4096 array of extended reals along its lanes, read at row `p`: the sum over `k < 4096` of the
    entries `(p, k)` (the index with `k` inserted on axis 1 of `(p)` is `(p, k)`). -/
theorem laneSum_apply (src : FVec Ideal S256x4096 .f32) (hφ : FKind.Formats .f32)
    (hacc : (0x00000000#32 : BitVec 32) = 0x00000000#32) (p : Fin 256) :
    multiReduction .add [1] S256 src 0x00000000#32 reduces_S256x4096_S256 hφ hacc (ix1 p)
      = ∑ k : Fin 4096, src (ix2 p k) :=
  (Ideal.multiReduction_add_single src 0x00000000#32 reduces_S256x4096_S256 hφ hacc (ix1 p)).trans
    (Finset.sum_congr rfl fun k _ => congrArg src (funext fun a => Fin.ext (by
      match a with
      | ⟨0, _⟩ => rfl
      | ⟨1, _⟩ => rfl)))

end Cert.KernelIdeal.Pay

end
-- ==== Proof.Spec.lean ====
import Idealize.ShloMosaic.PureOps.Ideal
import Idealize.ShloMosaic.Lib.ValueIdx

/-!
# The ternary-weight linear layer, row by row, on the extended reals

A weight row `r : Fin 4096 → EReal` is quantized to three levels. With `|r j| = max (r j) (-(r j))`:

* `rowSum r = ∑ j, |r j|` and the threshold `delta r = c * rowSum r`, `c` the f32 word `0x39333333`
  (kept as a word: both programs carry the same one, so its value is never needed);
* `mask r j` is the one-bit answer to `|r j| > delta r`; `cnt r` adds the bits up as extended reals,
  `asum r` adds up the `|r j|` whose bit is set;
* `tern r j` is `1` where `r j > delta r`, `-1` where `r j < 0 - delta r`, else `0`;
* the scale is `asum r / max (cnt r) 1` (`alphaK`) or `asum r / cnt r` (`alphaR`): the two divisors differ only on a
  row with no bit set, and on such a row `tern` vanishes identically, so the scaled rows `twRowK`, `twRowR` agree.

The layer's result is `out x W b i j = (∑ k, x i k * twRowK (W k) j) + b j`.

Every operation is written as the extended-real operation an ideal float operation unfolds to:
`max a (-a)` for an absolute value, `Ideal.cmp` for a comparison (a `BitVec 1`), `Scalar.select` for a choice by
such a bit, `((b.setWidth 32).toInt : ℝ)` for a bit widened to 32 bits and converted, `Ideal.div` for a quotient;
every float zero is the literal `0` (`Ideal.ofBits_zero_f32` turns the zero word into it) and a sum has no initial
value.
-/

noncomputable section

namespace Cert.Spec

open Idealize.ShloMosaic

/-- `|r j|`. -/
def absW (r : Fin 4096 → EReal) (j : Fin 4096) : EReal := max (r j) (-(r j))

/-- The sum of the absolute values of a row. -/
def rowSum (r : Fin 4096 → EReal) : EReal := ∑ j : Fin 4096, absW r j

/-- The row's threshold: the constant word times the row sum. -/
def delta (r : Fin 4096 → EReal) : EReal := Ideal.ofBits .f32 0x39333333#32 * rowSum r

/-- The bit `|r j| > delta r`. -/
def mask (r : Fin 4096 → EReal) (j : Fin 4096) : BitVec 1 := Ideal.cmp .ogt (absW r j) (delta r)

/-- How many entries of the row are above the threshold in absolute value, as an extended real:
    the sum of the bits, each widened to 32 bits and converted. -/
def cnt (r : Fin 4096 → EReal) : EReal := ∑ j : Fin 4096, ((((mask r j).setWidth 32).toInt : ℝ) : EReal)

/-- The sum of the absolute values above the threshold. -/
def asum (r : Fin 4096 → EReal) : EReal := ∑ j : Fin 4096, Scalar.select (mask r j) (absW r j) 0

/-- The scale with the guarded divisor `max (cnt r) 1` (`1` as the f32 word `0x3F800000`). -/
def alphaK (r : Fin 4096 → EReal) : EReal := Ideal.div (asum r) (max (cnt r) (Ideal.ofBits .f32 0x3F800000#32))

/-- The scale with the bare divisor `cnt r`. -/
def alphaR (r : Fin 4096 → EReal) : EReal := Ideal.div (asum r) (cnt r)

/-- The three-level entry: the word of `1` above the threshold, the word of `-1` below its negative, else `0`. -/
def tern (r : Fin 4096 → EReal) (j : Fin 4096) : EReal :=
  Scalar.select (Ideal.cmp .ogt (r j) (delta r)) (Ideal.ofBits .f32 0x3F800000#32)
    (Scalar.select (Ideal.cmp .olt (r j) (0 - delta r)) (Ideal.ofBits .f32 0xBF800000#32) 0)

/-- The quantized row with the guarded scale. -/
def twRowK (r : Fin 4096 → EReal) (j : Fin 4096) : EReal := tern r j * alphaK r

/-- The quantized row with the bare scale. -/
def twRowR (r : Fin 4096 → EReal) (j : Fin 4096) : EReal := tern r j * alphaR r

/-- The layer: `x` times the quantized weights, plus the bias. -/
def out (x : Fin 8192 → Fin 4096 → EReal) (W : Fin 4096 → Fin 4096 → EReal) (b : Fin 4096 → EReal)
    (i : Fin 8192) (j : Fin 4096) : EReal :=
  (∑ k : Fin 4096, x i k * twRowK (W k) j) + b j

end Cert.Spec

end
-- ==== Proof.KIPayTern.lean ====
/-
  The value the ternarization body stores, read at one entry (p, q) of its 256 × 4096 block, with floats
  read as extended reals. Write r for row p of the loaded block, r j = v0 (p, j). Every quantity the body
  computes for row p is a function of r alone:
    the row's sum of absolute values, ∑ k, |r k|, and the threshold delta = c * that sum (c a fixed word);
    the bit |r k| > delta at each lane k; the count of set bits and the sum of the |r k| whose bit is set,
      both as lane sums; the scale, the second divided by max(count, 1);
    the three-level entry at lane q: 1 where r q > delta, -1 where r q < 0 - delta, else 0.
  The stored entry is the three-level entry times the scale: the specification's guarded-scale row at q.
  Each column the body forms (a lane sum kept as a 256 × 1 array, then repeated along the lanes) reads at
  (p, q) the lane sum of row p; the change of format at the end is the identity; the zero words are 0.
-/
import proofs.«124082_j4320737100212_2_alg».proof.Proof.KIPayCols
import proofs.«124082_j4320737100212_2_alg».proof.Proof.Spec

noncomputable section

namespace Cert.KernelIdeal.Pay

open Cert.KernelIdeal Cert.KernelIdeal.Gen Idealize.ShloMosaic Idealize.ShloMosaic.ValueIdx

/-- An absolute value at an entry: the larger of the entry and its negative. -/
theorem absf_at {s : Shape} (a : FVec Ideal s .f32) (i : s.Idx) : absf a i = max (a i) (-(a i)) := rfl
/-- A 32-bit word converted as a signed integer: that integer, as a real. -/
theorem sitofp_word (b : BitVec 32) : FloatOps.sitofp (F := Ideal) .f32 b = ((b.toInt : ℝ) : EReal) := rfl
/-- A scalar constant is the extended real its word encodes. -/
theorem scalar_word (b : BitVec 32) : Scalar.ofBits (F := Ideal) .f32 b = Ideal.ofBits .f32 b := rfl

/-- The stored entry at (p, q) is the specification's quantized row, with the guarded scale, of row p of the
    loaded block, at lane q. The pointwise operations and the two column forms are pushed to the entry; each of the
    three lane sums is then the sum over the lanes of row p; what is left is the specification's term. -/
theorem tern_apply (v0 : Vec Ideal S256x4096 .f32) (p : Fin 256) (q : Fin 4096) :
    k0_pay1 v0 (ix2 p q) = Cert.Spec.twRowK (fun j => v0 (ix2 p j)) q := by
  unfold k0_pay1
  simp only [truncf_apply, mulf_apply, select_apply, cmpf_apply, broadcast_apply, broadcastTo_a1_ab_apply,
    divf_apply, maximumf_apply, subf_apply, shapeCast_a_a1_apply, sitofp_apply, extui_apply,
    sitofp_word, scalar_word, Ideal.ofBits_zero_f32, Ideal.cmpf_def]
  repeat rw [laneSum_apply]
  simp only [select_apply, cmpf_apply, broadcast_apply, broadcastTo_a1_ab_apply, mulf_apply,
    shapeCast_a_a1_apply, sitofp_apply, extui_apply, sitofp_word, Ideal.cmpf_def]
  repeat rw [laneSum_apply]
  simp only [absf_at]
  rfl

end Cert.KernelIdeal.Pay

end
-- ==== Proof.KITernValue.lean ====
import proofs.«124082_j4320737100212_2_alg».proof.Proof.KIRegionTern
import proofs.«124082_j4320737100212_2_alg».proof.Proof.KIPayTern
import Idealize.ShloMosaic.Lib.Pipeline.Value

/-!
# The ternarized weight matrix as one function of the weights

The first call runs over sixteen points; point `t` reads rows `256·t … 256·t + 255` of the weight matrix (all
4096 columns) and writes back the same rows of its result. Entry `(p, q)` of what point `t` writes is the
quantized row, with the guarded scale, of row `p` of the block it read — a function of that one row only — and
row `p` of block `t` is row `256·t + p` of the weights. So every block written is the restriction of ONE function
of the weight matrix, `G0 W (k, q) = twRowK (row k of W) q`; the sixteen blocks tile the matrix (row `k` lies in
block `k / 256`), hence after the call the result array is `G0` of the weights.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-two rectangle. -/
theorem origin2 : (![0, 0] : Fin 2 → Nat) = fun _ => 0 := funext fun a => by fin_cases a <;> rfl

/-- The ternarized weights as one function of the weight matrix: entry `(k, q)` is the quantized row `k`,
    scaled with the guarded divisor, at column `q`. -/
def G0 (W : S4096x4096.Idx → EReal) : S4096x4096.Idx → EReal :=
  fun idx => Cert.Spec.twRowK (fun j => W (ix2 (⟨(idx 0).val, (idx 0).isLt⟩ : Fin 4096) j)) ⟨(idx 1).val, (idx 1).isLt⟩

theorem G0_apply (W : S4096x4096.Idx → EReal) (k q : Fin 4096) :
    G0 W (ix2 k q) = Cert.Spec.twRowK (fun j => W (ix2 k j)) q := rfl

/-- Both windows of the call sit, at point `t`, at block `(t, 0)`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of the block point `t` reads is row `256·t + p` of the weights. -/
theorem iblk0_apply (c : Dev nD) (t : Fin cfg0.N) (p : Fin 256) (j k : Fin 4096) (hk : k.val = 256 * t.val + p.val) :
    (iblk0 V c 0 t : Vec Ideal S256x4096 .f32) (ix2 p j) = (V c main_arg1 : S4096x4096.Idx → EReal) (ix2 k j) := by
  obtain ⟨e0, e1, -, -⟩ := block_index t
  unfold iblk0
  rw [View.read_apply]
  show V c main_arg1 _ = V c main_arg1 _
  congr 1
  funext a
  apply Fin.ext
  match a with
  | ⟨0, _⟩ => show win0_0.index t 0 * 256 + 1 * p.val = k.val; rw [e0, hk]; omega
  | ⟨1, _⟩ => show win0_0.index t 1 * 4096 + 1 * j.val = j.val; rw [e1]; omega

/-- What point `t` writes back is block `t` of `G0` of the weights as the call finds them. -/
theorem tern_flushed (c : Dev nD) (t : Fin cfg0.N) :
    (dat0 V c).flushed 1 t = ((cfg0.win 1).blk t).view.read (Elt Ideal) (G0 (V c main_arg1)) := by
  show (cfg0.win 1).cut (grid0.coords t) ((dat0 V c).after 1 t) = _
  rw [after0_1]
  unfold out0_1
  rw [View.canon_unit_zero origin2]
  simp only [View.ld_unit_zero (S := S256x4096) origin2]
  obtain ⟨-, -, e2, e3⟩ := block_index t
  have hN : cfg0.N = 16 := N_0
  funext y
  have hy0 : (y 0).val < 256 := (y 0).isLt
  have hy1 : (y 1).val < 4096 := (y 1).isLt
  have ht : t.val < 16 := hN ▸ t.isLt
  let p : Fin 256 := ⟨(y 0).val, hy0⟩
  let q : Fin 4096 := ⟨(y 1).val, hy1⟩
  let k : Fin 4096 := ⟨256 * t.val + (y 0).val, by omega⟩
  have hx : (cfg0.win 1).xinj (grid0.coords t) y = ix2 p q :=
    funext fun a => Fin.ext (by match a with | ⟨0, _⟩ => rfl | ⟨1, _⟩ => rfl)
  have hemb : ((cfg0.win 1).blk t).view.emb y = ix2 k q := by
    funext a
    apply Fin.ext
    match a with
    | ⟨0, _⟩ => show win0_1.index t 0 * 256 + 1 * (y 0).val = 256 * t.val + (y 0).val; rw [e2]; omega
    | ⟨1, _⟩ => show win0_1.index t 1 * 4096 + 1 * (y 1).val = (y 1).val; rw [e3]; omega
  show k0_pay1 (iblk0 V c 0 t) ((cfg0.win 1).xinj (grid0.coords t) y) = G0 (V c main_arg1) (((cfg0.win 1).blk t).view.emb y)
  rw [hx, hemb, G0_apply]
  refine (Cert.KernelIdeal.Pay.tern_apply (iblk0 V c 0 t) p q).trans ?_
  exact congrArg (fun r => Cert.Spec.twRowK r q) (funext fun j => iblk0_apply V c t p j k rfl)

/-- An index of the array is in point `t`'s block iff each coordinate is in the block's range on its axis. -/
theorem mem_block (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- The sixteen blocks tile the matrix: row `k` lies in block `k / 256`. -/
theorem covered (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  have hlt : (i 0).val / 256 < cfg0.N := by rw [hN]; omega
  obtain ⟨-, -, e2, e3⟩ := block_index ⟨(i 0).val / 256, hlt⟩
  refine ⟨⟨(i 0).val / 256, hlt⟩, flush0_1 _, ?_⟩
  rw [mem_block]
  intro a
  match a with
  | ⟨0, _⟩ =>
    show win0_1.index ⟨(i 0).val / 256, hlt⟩ 0 * 256 ≤ (i 0).val ∧ (i 0).val < win0_1.index ⟨(i 0).val / 256, hlt⟩ 0 * 256 + 256
    rw [e2]; show (i 0).val / 256 * 256 ≤ (i 0).val ∧ (i 0).val < (i 0).val / 256 * 256 + 256; omega
  | ⟨1, _⟩ =>
    show win0_1.index ⟨(i 0).val / 256, hlt⟩ 1 * 4096 ≤ (i 1).val ∧ (i 1).val < win0_1.index ⟨(i 0).val / 256, hlt⟩ 1 * 4096 + 4096
    rw [e3]; omega

/-- After the call the result array is `G0` of the weight matrix as the call found it. -/
theorem tern_final (c : Dev nD) : (dat0 V c).arrAt 1 cfg0.N = G0 (V c main_arg1) :=
  (dat0 V c).arrAt_eq_of_cover 1 (G0 (V c main_arg1)) (fun t _ => tern_flushed V c t) covered

end Cert.KernelIdeal.Hand

end
-- ==== Proof.KIPayRow.lean ====
/-
  The bias vector of 4096 entries viewed as a 1 × 4096 row (the one host operation between the two
  calls is this change of shape): the row's entry (0, q) is the vector's entry q, both having row-major
  position q. Stated for arrays of any element type, and for any spelling u of the unit coordinate.
-/
import proofs.«124082_j4320737100212_2_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-- The row at `(u, q)`, `u` the unit coordinate, is the vector at `q`. -/
theorem reshape_row_unit {α : Type} (b : S4096.Idx → α) (h : S4096.ShapeCasts S1x4096) (u : Fin 1) (q : Fin 4096) :
    shapeCast S1x4096 b h (ix2 u q) = b (ix1 q) :=
  shapeCast_a_1a_apply b h u q

/-- The row at `(0, q)` is the vector at `q`. -/
theorem reshape_row {α : Type} (b : S4096.Idx → α) (h : S4096.ShapeCasts S1x4096) (q : Fin 4096) :
    shapeCast S1x4096 b h (ix2 (0 : Fin 1) q) = b (ix1 q) :=
  reshape_row_unit b h 0 q

end Cert.KernelIdeal.Pay

end
-- ==== Proof.KIValue.lean ====
/-
  The idealized kernel's result, as one function of its three arguments. The second call finds x as launched,
  the ternarized weights as the first call's write-backs left them (row k is the row function twRowK of row k
  of the weights), and the bias reshaped to a row; so entry (i, j) of what it leaves in the result array is
  Σ_K x[i, K] · twRowK(W[K, ·])(j) + bias[j]  — the specification's function.
-/
import proofs.«124082_j4320737100212_2_alg».proof.Proof.KIRun
import proofs.«124082_j4320737100212_2_alg».proof.Proof.KIMatmulValue
import proofs.«124082_j4320737100212_2_alg».proof.Proof.KITernValue
import proofs.«124082_j4320737100212_2_alg».proof.Proof.KIPayRow
import proofs.«124082_j4320737100212_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (m : (ℓ : Loc nD τ sig) → Buf (Elt Ideal) ℓ) (ρ : Dev nD → PrngReg) (c : Dev nD)

/-- The bias row as the second call finds it: the bias vector, reshaped. -/
theorem W2_main_v1 :
    W2 m c (Proc.devRef .tc main_v1) = shapeCast S1x4096 (m ((c : Thread nD τ).loc main_arg2)) Facts₀.shapeCasts_S4096_S1x4096 := by
  have e : W1 m c (Proc.devRef .tc main_arg2) = m ((c : Thread nD τ).loc main_arg2) := W1_of_ne m c main_arg2 (by decide)
  refine (show W2 m c (Proc.devRef .tc main_v1) = shapeCast S1x4096 (W1 m c (Proc.devRef .tc main_arg2)) Facts₀.shapeCasts_S4096_S1x4096 from by
    dsimp only [W2, hostOps1]; after_results; rfl).trans ?_
  rw [e]

/-- The result array at the end, from the launch contents of the three arguments. -/
theorem result_eq :
    W3 m c (Proc.devRef .tc main_v2)
      = G1 (m ((c : Thread nD τ).loc main_arg0)) (G0 (m ((c : Thread nD τ).loc main_arg1)))
          (shapeCast S1x4096 (m ((c : Thread nD τ).loc main_arg2)) Facts₀.shapeCasts_S4096_S1x4096) := by
  have hX : arrX (VE2 m) c = m ((c : Thread nD τ).loc main_arg0) := W2_main_arg0 m c
  have hT : arrT (VE2 m) c = G0 (m ((c : Thread nD τ).loc main_arg1)) := (W2_main_v0 m c).trans (tern_final (VE0 m) c)
  have hB : arrB (VE2 m) c = shapeCast S1x4096 (m ((c : Thread nD τ).loc main_arg2)) Facts₀.shapeCasts_S4096_S1x4096 := W2_main_v1 m c
  rw [W3_main_v2, final1, hX, hT, hB]

/-- That function is the specification's. -/
theorem G1_eq_spec (x : S8192x4096.Idx → EReal) (W : S4096x4096.Idx → EReal) (b : S4096.Idx → EReal) (h : S4096.ShapeCasts S1x4096) :
    G1 x (G0 W) (shapeCast S1x4096 b h)
      = fun idx => Cert.Spec.out (fun i k => x (ix2 i k)) (fun k j => W (ix2 k j)) (fun j => b (ix1 j)) (idx 0) (idx 1) := by
  funext idx
  obtain ⟨i, j, rfl⟩ : ∃ (i : Fin 8192) (j : Fin 4096), idx = ix2 i j := ⟨idx 0, idx 1, eq_ix2 idx⟩
  show (∑ K : Fin 4096, x (ix2 i K) * G0 W (ix2 K j)) + shapeCast S1x4096 b h (ix2 (0 : Fin 1) j)
    = (∑ k : Fin 4096, x (ix2 i k) * Cert.Spec.twRowK (fun j' => W (ix2 k j')) j) + b (ix1 j)
  rw [reshape_row]
  congr 1

/-- The specification's function of the launch contents, as contents of the result buffer. -/
def kres : Buf (Elt Ideal) ((c : Thread nD τ).loc main_v2) :=
  fun idx => Cert.Spec.out (fun i k => m ((c : Thread nD τ).loc main_arg0) (ix2 i k)) (fun k j => m ((c : Thread nD τ).loc main_arg1) (ix2 k j))
    (fun j => m ((c : Thread nD τ).loc main_arg2) (ix1 j)) (idx 0) (idx 1)

/-- Every weakly fair execution of the idealized kernel ends with the result array at the specification's
    function of the arguments, and the arguments unchanged. -/
theorem run_value : θ_run defs (onTc (τ := τ) (main (F := Ideal))) ⟨m, fun _ => 0, ρ⟩ (fun r => ∀ c : Dev nD,
      r.2.mem ((c.tc : Thread nD τ).loc main_v2) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans ((result_eq m c).trans (G1_eq_spec _ _ _ _)),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Hand

end
-- ==== Proof.SpecLaw.lean ====
import proofs.«124082_j4320737100212_2_alg».proof.Proof.Spec
import Idealize.ShloMosaic.PureOps.Ideal.Laws

/-!
# The two scales give the same quantized row; counting bits as integers or as reals

`twRowR_eq_twRowK`: for every row `r` and column `j`, `tern r j * alphaR r = tern r j * alphaK r`, on the extended
reals, with no finiteness assumed. Either some entry of the row has its bit set — then the count is at least `1`,
`max (cnt r) 1 = cnt r`, and the two scales are the same quotient — or no bit is set: then every `|r j| ≤ delta r`,
so `r j ≤ delta r` and `-(r j) ≤ delta r`, i.e. `0 - delta r ≤ r j`; neither comparison of `tern` holds, `tern r j = 0`,
and both products are `0` times something, which is `0` on the extended reals whatever the other factor is.

`fold_addi_bits`: adding up one-bit words widened to 32 bits in 32-bit integer arithmetic and converting the total
is the same as converting each and adding the extended reals, as long as there are fewer than `2^31` of them
(the integer total is the number of set bits, which cannot wrap).
-/

noncomputable section

namespace Cert.Spec

open Idealize.ShloMosaic

/-! ## One-bit words -/

/-- A one-bit word widened to 32 bits is `1` or `0` as a signed integer. -/
theorem bit_toInt (b : BitVec 1) : (b.setWidth 32).toInt = if b = 1#1 then 1 else 0 := by
  revert b; decide

/-- … and as a natural number; it is at most `1`. -/
theorem bit_toNat_le (b : BitVec 1) : (b.setWidth 32).toNat ≤ 1 := by
  revert b; decide

theorem bit_toInt_eq_toNat (b : BitVec 1) : (b.setWidth 32).toInt = ((b.setWidth 32).toNat : ℤ) := by
  revert b; decide

/-- The converted bit is `1` or `0`. -/
theorem bit_real (b : BitVec 1) :
    ((((b.setWidth 32).toInt : ℝ)) : EReal) = if b = 1#1 then 1 else 0 := by
  rw [bit_toInt]
  by_cases h : b = 1#1
  · rw [if_pos h, if_pos h]; norm_num
  · rw [if_neg h, if_neg h]; norm_num

theorem bit_real_nonneg (b : BitVec 1) : (0 : EReal) ≤ ((((b.setWidth 32).toInt : ℝ)) : EReal) := by
  rw [bit_real]; split <;> simp

/-- The comparison bits, read as order statements. -/
theorem cmp_ogt_eq_one {x y : EReal} : Ideal.cmp .ogt x y = 1#1 ↔ y < x := by
  unfold Ideal.cmp
  by_cases h : y < x <;> simp [h]

theorem cmp_olt_eq_one {x y : EReal} : Ideal.cmp .olt x y = 1#1 ↔ x < y := by
  unfold Ideal.cmp
  by_cases h : x < y <;> simp [h]

/-- The f32 word `0x3F800000` is `1`. -/
theorem one_word : Ideal.ofBits .f32 0x3F800000#32 = 1 := IdealRules.sign_bit.ideal_onePat .f32

/-! ## The law -/

/-- If some bit of the row is set, the count is at least one. -/
theorem one_le_cnt (r : Fin 4096 → EReal) (j0 : Fin 4096) (h : mask r j0 = 1#1) : (1 : EReal) ≤ cnt r := by
  unfold cnt
  have h1 : ((((mask r j0).setWidth 32).toInt : ℝ) : EReal) = 1 := by rw [bit_real, if_pos h]
  rw [← h1]
  exact Finset.single_le_sum (f := fun j => ((((mask r j).setWidth 32).toInt : ℝ) : EReal))
    (fun j _ => bit_real_nonneg _) (Finset.mem_univ j0)

/-- If no bit of the row is set, the three-level row is zero. -/
theorem tern_eq_zero (r : Fin 4096 → EReal) (h : ∀ j, mask r j ≠ 1#1) (j : Fin 4096) : tern r j = 0 := by
  have hle : absW r j ≤ delta r := not_lt.mp fun hlt => h j (cmp_ogt_eq_one.mpr hlt)
  have h1 : r j ≤ delta r := le_trans (le_max_left _ _) hle
  have h2 : -(r j) ≤ delta r := le_trans (le_max_right _ _) hle
  have h3 : 0 - delta r ≤ r j := by rw [zero_sub]; exact EReal.neg_le.mp h2
  have c1 : Ideal.cmp .ogt (r j) (delta r) ≠ 1#1 := fun e => absurd (cmp_ogt_eq_one.mp e) (not_lt.mpr h1)
  have c2 : Ideal.cmp .olt (r j) (0 - delta r) ≠ 1#1 := fun e => absurd (cmp_olt_eq_one.mp e) (not_lt.mpr h3)
  unfold tern Scalar.select
  exact (if_neg c1).trans (if_neg c2)

/-- The quantized row does not depend on which of the two divisors scales it. -/
theorem twRowR_eq_twRowK (r : Fin 4096 → EReal) (j : Fin 4096) : twRowR r j = twRowK r j := by
  unfold twRowR twRowK
  by_cases h : ∃ j0, mask r j0 = 1#1
  · obtain ⟨j0, hj0⟩ := h
    have : alphaK r = alphaR r := by
      unfold alphaK alphaR
      rw [one_word, max_eq_left (one_le_cnt r j0 hj0)]
    rw [this]
  · have h' : ∀ j, mask r j ≠ 1#1 := fun j e => h ⟨j, e⟩
    rw [tern_eq_zero r h' j, zero_mul, zero_mul]

/-- The same for whole rows. -/
theorem twRowR_eq (r : Fin 4096 → EReal) : twRowR r = twRowK r := funext (twRowR_eq_twRowK r)

/-! ## Counting in integers and in reals -/

/-- The coercion of a finite real sum is the sum of the coercions. -/
theorem coe_sum_real {ι : Type} (S : Finset ι) (a : ι → ℝ) :
    ((∑ k ∈ S, a k : ℝ) : EReal) = ∑ k ∈ S, (a k : EReal) := by
  classical
  induction S using Finset.induction_on with
  | empty => simp
  | insert a0 S ha ih => rw [Finset.sum_insert ha, Finset.sum_insert ha, EReal.coe_add, ih]

/-- Adding one-bit words, widened to 32 bits, in 32-bit arithmetic does not wrap below `2^32` of them:
    the total is the sum of the bits as natural numbers. -/
theorem fold_addi_toNat {ι : Type} [DecidableEq ι] (f : ι → BitVec 1) (S : Finset ι) (hS : S.card < 2 ^ 32) :
    (S.fold IntOp.addi 0#32 (fun k => (f k).setWidth 32)).toNat = ∑ k ∈ S, ((f k).setWidth 32).toNat
      ∧ ∑ k ∈ S, ((f k).setWidth 32).toNat ≤ S.card := by
  induction S using Finset.induction_on with
  | empty => simp
  | insert a0 S ha ih =>
    rw [Finset.card_insert_of_notMem ha] at hS
    obtain ⟨e, le⟩ := ih (by omega)
    have hb := bit_toNat_le (f a0)
    rw [Finset.fold_insert ha, Finset.sum_insert ha, Finset.card_insert_of_notMem ha]
    refine ⟨?_, by omega⟩
    show (((f a0).setWidth 32) + _).toNat = _
    rw [BitVec.toNat_add, e]
    exact Nat.mod_eq_of_lt (by omega)

/-- Counting set bits in 32-bit integers and converting the total, or converting each bit and adding the
    extended reals: the same, for fewer than `2^31` bits. -/
theorem fold_addi_bits {ι : Type} [Fintype ι] [DecidableEq ι] (f : ι → BitVec 1) (hι : Fintype.card ι < 2 ^ 31) :
    ((((Finset.univ : Finset ι).fold IntOp.addi 0#32 (fun k => (f k).setWidth 32)).toInt : ℝ) : EReal)
      = ∑ k : ι, ((((f k).setWidth 32).toInt : ℝ) : EReal) := by
  have hc : (Finset.univ : Finset ι).card < 2 ^ 31 := by rwa [Finset.card_univ]
  obtain ⟨e, le⟩ := fold_addi_toNat f Finset.univ (by omega)
  have hint : ((Finset.univ : Finset ι).fold IntOp.addi 0#32 (fun k => (f k).setWidth 32)).toInt
      = ((∑ k : ι, ((f k).setWidth 32).toNat : ℕ) : ℤ) := by
    rw [BitVec.toInt_eq_toNat_of_lt (by omega), e]
  rw [hint, ← coe_sum_real]
  congr 1
  push_cast
  exact Finset.sum_congr rfl fun k _ => by rw [bit_toInt_eq_toNat]; norm_cast

end Cert.Spec

end
-- ==== Proof.RefValue.lean ====
import proofs.«124082_j4320737100212_2_alg».proof.Proof.Gen.ReferenceIdeal.Read
import proofs.«124082_j4320737100212_2_alg».proof.Proof.SpecLaw
import Idealize.ShloMosaic.PureOps.Reduce

/-!
# The reference computes the layer `Cert.Spec.out`

The reference program's result array is read one entry at a time through the stage-by-stage reading of its
operations (the imported module `Read`: one function `val_main_vN` per operation and its value at an index).
Row `k` of the weights is `row W k = fun j => W (k, j)`. Going down the program:

* `|W|` at `(k, j)` is `absW (row W k) j`; its sum along the row (the host's sum starts from the zero word, which is
  `0`) is `rowSum (row W k)`; times the constant word, kept as a `4096 × 1` column and broadcast back, it is
  `delta (row W k)`; the comparison bit is `mask (row W k) j`;
* the reference COUNTS the set bits in 32-bit integers — widen each bit, add with wrap-around from `0`, convert the
  total — where `cnt` converts each bit and adds extended reals: `Cert.Spec.fold_addi_bits` says these agree (4096 bits
  cannot wrap). The integer sum is the one operation the imported module does not read at an index; it is read here as a
  fold over the row's coordinates;
* the selected absolute values (the reference's "else" value is the integer `0` converted, which is `0`) sum to
  `asum (row W k)`, and their quotient by the count is `alphaR (row W k)`;
* the reference negates the threshold where `tern` has `0 - delta`: the same extended real; the two nested choices
  are `tern (row W k) j`, and the product with the scale is `twRowR (row W k) j`;
* the contraction with `x` is the sum over `k` of `x (i, k) * twRowR (row W k) j`, and the bias, broadcast twice, is
  `b j`.

Last, `Cert.Spec.twRowR_eq_twRowK` replaces the bare divisor by the guarded one, which gives `Cert.Spec.out`.
-/

noncomputable section

namespace Cert.ReferenceIdeal.RefValue

open Cert.ReferenceIdeal Cert.ReferenceIdeal.Gen Cert.ReferenceIdeal.Read Idealize.ShloMosaic Idealize.ShloMosaic.ValueIdx

/-- Row `k` of the weight array. -/
abbrev row (W : (⟨S4096x4096, .f32⟩ : BufTy).Contents (Elt Ideal)) (k : Fin 4096) : Fin 4096 → EReal := fun j => W (ix2 k j)

/-- The one column of a `4096 × 1` array. -/
abbrev col0 (k : Fin 4096) : S4096x1.Idx := ix2 k (0 : Fin 1)

theorem v0_at (W : (⟨S4096x4096, .f32⟩ : BufTy).Contents (Elt Ideal)) (k j : Fin 4096) :
    val_main_v0 (F := Ideal) W (ix2 k j) = Cert.Spec.absW (row W k) j := rfl

theorem v1_at (W : (⟨S4096x4096, .f32⟩ : BufTy).Contents (Elt Ideal)) (k : Fin 4096) :
    val_main_v1 (F := Ideal) W (ix1 k) = Cert.Spec.rowSum (row W k) := by
  rw [val_main_v1_apply, val_main_cst_apply, Ideal.ofBits_def, Ideal.ofBits_zero_f32, zero_add]
  unfold Cert.Spec.rowSum
  refine Finset.sum_congr rfl fun j _ => ?_
  have e : idx_main_v1 (ix1 k) j = ix2 k j := funext fun a => Fin.ext (by match a with | ⟨0, _⟩ => rfl | ⟨1, _⟩ => rfl)
  rw [e, v0_at]

theorem v4_at (W : (⟨S4096x4096, .f32⟩ : BufTy).Contents (Elt Ideal)) (k : Fin 4096) :
    val_main_v4 (F := Ideal) W (col0 k) = Cert.Spec.delta (row W k) := by
  rw [val_main_v4_apply, val_main_v3_apply, val_main_cst_0_apply, val_main_v2_apply]
  have e : idx_main_v2 (col0 k) = ix1 k := funext fun a => Fin.ext (by match a with | ⟨0, _⟩ => rfl)
  rw [e, v1_at]
  rfl

theorem v5_at (W : (⟨S4096x4096, .f32⟩ : BufTy).Contents (Elt Ideal)) (k j : Fin 4096) :
    val_main_v5 (F := Ideal) W (ix2 k j) = Cert.Spec.delta (row W k) := by
  rw [val_main_v5_apply]
  have e : idx_main_v5 (ix2 k j) = col0 k := funext fun a => Fin.ext (by match a with | ⟨0, _⟩ => rfl | ⟨1, _⟩ => rfl)
  rw [e, v4_at]

theorem v6_at (W : (⟨S4096x4096, .f32⟩ : BufTy).Contents (Elt Ideal)) (k j : Fin 4096) :
    val_main_v6 (F := Ideal) W (ix2 k j) = Cert.Spec.mask (row W k) j := by
  rw [val_main_v6_apply, v0_at, v5_at]
  rfl

theorem v8_at (W : (⟨S4096x4096, .f32⟩ : BufTy).Contents (Elt Ideal)) (k : Fin 4096) :
    val_main_v8 (F := Ideal) W (ix1 k)
      = (Finset.univ : Finset (Fin 4096)).fold IntOp.addi 0#32 (fun j => (Cert.Spec.mask (row W k) j).setWidth 32) := by
  unfold val_main_v8
  have h : S4096x4096.Reduces [1] S4096 := by decide
  rw [Host.reduce_eq_fold_single IntOp.addi _ _ reducesTo_S4096x4096_S4096_d1 h h_S_ (ix1 k)]
  have e : (val_main_v7 (F := Ideal) W ∘ h.lift (ix1 k)) = fun j : Fin 4096 => (Cert.Spec.mask (row W k) j).setWidth 32 := by
    refine funext fun (j : Fin 4096) => ?_
    have e1 : h.lift (ix1 k) j = ix2 k j := funext fun a => Fin.ext (by match a with | ⟨0, _⟩ => rfl | ⟨1, _⟩ => rfl)
    show val_main_v7 (F := Ideal) W (h.lift (ix1 k) j) = _
    rw [e1, val_main_v7_apply, v6_at]
  rw [e]
  rfl

theorem v10_at (W : (⟨S4096x4096, .f32⟩ : BufTy).Contents (Elt Ideal)) (k : Fin 4096) :
    val_main_v10 (F := Ideal) W (col0 k) = Cert.Spec.cnt (row W k) := by
  rw [val_main_v10_apply, val_main_v9_apply]
  have e : idx_main_v9 (col0 k) = ix1 k := funext fun a => Fin.ext (by match a with | ⟨0, _⟩ => rfl)
  rw [e, v8_at]
  exact Cert.Spec.fold_addi_bits (fun j => Cert.Spec.mask (row W k) j) (by simp)

theorem v11_at (W : (⟨S4096x4096, .f32⟩ : BufTy).Contents (Elt Ideal)) (k j : Fin 4096) :
    val_main_v11 (F := Ideal) W (ix2 k j)
      = Scalar.select (Cert.Spec.mask (row W k) j) (Cert.Spec.absW (row W k) j) 0 := by
  rw [val_main_v11_apply, v6_at, v0_at, val_main_call0_v1_apply, val_main_call0_v0_apply, val_main_c_1_apply]
  have z : (FloatOps.sitofp (F := Ideal) .f32 (0#32 : BitVec 32) : EReal) = 0 := by
    show (((0#32 : BitVec 32).toInt : ℝ) : EReal) = 0
    norm_num
  rw [z]

theorem v12_at (W : (⟨S4096x4096, .f32⟩ : BufTy).Contents (Elt Ideal)) (k : Fin 4096) :
    val_main_v12 (F := Ideal) W (ix1 k) = Cert.Spec.asum (row W k) := by
  rw [val_main_v12_apply, val_main_cst_2_apply, Ideal.ofBits_def, Ideal.ofBits_zero_f32, zero_add]
  unfold Cert.Spec.asum
  refine Finset.sum_congr rfl fun j _ => ?_
  have e : idx_main_v12 (ix1 k) j = ix2 k j := funext fun a => Fin.ext (by match a with | ⟨0, _⟩ => rfl | ⟨1, _⟩ => rfl)
  rw [e, v11_at]

theorem v14_at (W : (⟨S4096x4096, .f32⟩ : BufTy).Contents (Elt Ideal)) (k : Fin 4096) :
    val_main_v14 (F := Ideal) W (col0 k) = Cert.Spec.alphaR (row W k) := by
  rw [val_main_v14_apply, val_main_v13_apply, v10_at]
  have e : idx_main_v13 (col0 k) = ix1 k := funext fun a => Fin.ext (by match a with | ⟨0, _⟩ => rfl)
  rw [e, v12_at]
  rfl

theorem v16_at (W : (⟨S4096x4096, .f32⟩ : BufTy).Contents (Elt Ideal)) (k j : Fin 4096) :
    val_main_v16 (F := Ideal) W (ix2 k j) = Ideal.cmp .ogt (row W k j) (Cert.Spec.delta (row W k)) := by
  rw [val_main_v16_apply, val_main_v15_apply]
  have e : idx_main_v15 (ix2 k j) = col0 k := funext fun a => Fin.ext (by match a with | ⟨0, _⟩ => rfl | ⟨1, _⟩ => rfl)
  rw [e, v4_at]
  rfl

theorem v19_at (W : (⟨S4096x4096, .f32⟩ : BufTy).Contents (Elt Ideal)) (k j : Fin 4096) :
    val_main_v19 (F := Ideal) W (ix2 k j) = Ideal.cmp .olt (row W k j) (0 - Cert.Spec.delta (row W k)) := by
  rw [val_main_v19_apply, val_main_v18_apply]
  have e : idx_main_v18 (ix2 k j) = col0 k := funext fun a => Fin.ext (by match a with | ⟨0, _⟩ => rfl | ⟨1, _⟩ => rfl)
  rw [e, val_main_v17_apply, v4_at, zero_sub]
  rfl

theorem v22_at (W : (⟨S4096x4096, .f32⟩ : BufTy).Contents (Elt Ideal)) (k j : Fin 4096) :
    val_main_v22 (F := Ideal) W (ix2 k j) = Cert.Spec.tern (row W k) j := by
  rw [val_main_v22_apply, val_main_v21_apply, v16_at, val_main_call2_v0_apply, val_main_cst_5_apply,
    val_main_v20_apply, v19_at, val_main_call1_v0_apply, val_main_cst_3_apply, val_main_call1_v1_apply,
    val_main_cst_4_apply]
  simp only [Ideal.ofBits_def, Ideal.ofBits_zero_f32]
  rfl

theorem v24_at (W : (⟨S4096x4096, .f32⟩ : BufTy).Contents (Elt Ideal)) (k j : Fin 4096) :
    val_main_v24 (F := Ideal) W (ix2 k j) = Cert.Spec.twRowR (row W k) j := by
  rw [val_main_v24_apply, v22_at, val_main_v23_apply]
  have e : idx_main_v23 (ix2 k j) = col0 k := funext fun a => Fin.ext (by match a with | ⟨0, _⟩ => rfl | ⟨1, _⟩ => rfl)
  rw [e, v14_at]
  rfl

theorem v27_at (b : (⟨S4096, .f32⟩ : BufTy).Contents (Elt Ideal)) (i : Fin 8192) (j : Fin 4096) :
    val_main_v27 (F := Ideal) b (ix2 i j) = b (ix1 j) := by
  rw [val_main_v27_apply, val_main_v26_apply]
  exact congrArg b (funext fun a => Fin.ext (by match a with | ⟨0, _⟩ => rfl))

/-- The reference's result, entry by entry, is the layer `Cert.Spec.out` of its three arguments: the input times the
    quantized weights plus the bias, the quantized weights scaled by the guarded divisor (the reference divides by the
    bare count; `Cert.Spec.twRowR_eq_twRowK` says the rows are the same). -/
theorem ref_eq_out (x : (⟨S8192x4096, .f32⟩ : BufTy).Contents (Elt Ideal)) (W : (⟨S4096x4096, .f32⟩ : BufTy).Contents (Elt Ideal)) (b : (⟨S4096, .f32⟩ : BufTy).Contents (Elt Ideal))
    (i : Fin 8192) (j : Fin 4096) :
    val_main_v28 (F := Ideal) x W b (ix2 i j)
      = Cert.Spec.out (fun i k => x (ix2 i k)) (fun k j => W (ix2 k j)) (fun j => b (ix1 j)) i j := by
  rw [val_main_v28_apply, val_main_v25_apply, v27_at]
  unfold Cert.Spec.out
  show (∑ k : Fin 4096, x (lidx_main_v25 (ix2 i j) k) * val_main_v24 (F := Ideal) W (ridx_main_v25 (ix2 i j) k)) + b (ix1 j) = _
  refine congrArg (· + b (ix1 j)) (Finset.sum_congr rfl fun k _ => ?_)
  have el : lidx_main_v25 (ix2 i j) k = ix2 i k := funext fun a => Fin.ext (by match a with | ⟨0, _⟩ => rfl | ⟨1, _⟩ => rfl)
  have er : ridx_main_v25 (ix2 i j) k = ix2 k j := funext fun a => Fin.ext (by match a with | ⟨0, _⟩ => rfl | ⟨1, _⟩ => rfl)
  rw [el, er, v24_at, Cert.Spec.twRowR_eq_twRowK]

/-- The same for the whole result array. -/
theorem ref_eq (x : (⟨S8192x4096, .f32⟩ : BufTy).Contents (Elt Ideal)) (W : (⟨S4096x4096, .f32⟩ : BufTy).Contents (Elt Ideal)) (b : (⟨S4096, .f32⟩ : BufTy).Contents (Elt Ideal)) :
    val_main_v28 (F := Ideal) x W b
      = fun idx => Cert.Spec.out (fun i k => x (ix2 i k)) (fun k j => W (ix2 k j)) (fun j => b (ix1 j)) (idx 0) (idx 1) := by
  funext idx
  obtain ⟨i, j, rfl⟩ : ∃ (i : Fin 8192) (j : Fin 4096), idx = ix2 i j := ⟨idx 0, idx 1, eq_ix2 idx⟩
  exact ref_eq_out x W b i j

end Cert.ReferenceIdeal.RefValue

end
-- ==== Proof.lean ====
/-
  A ternary-weight linear layer: x : f32[8192, 4096], W : f32[4096, 4096], bias : f32[4096]. Each row r of W is
  ternarized — with δ = c · Σ_j |r_j| (c one fixed f32 word, the same in both programs), every entry becomes
  +1 if r_j > δ, −1 if r_j < −δ, else 0, times a row scale α — and the result is x · ternarized(W) + bias.

  The kernel does this in two calls: the first ternarizes 256 rows of W per grid point; the second is a tiled
  matrix product that accumulates sixteen K-blocks of 256 into a scratch accumulator and adds the bias on the
  last one. The reference is plain array code ending in one whole contraction.

  The two differ in one place only: the reference's scale is α = s / n (s the sum of the |r_j| above δ, n their
  number), the kernel's is s / max(n, 1). Over the extended reals they give the same row: if n ≥ 1 the divisors
  agree; if n = 0 no |r_j| exceeds δ, hence no r_j exceeds δ and none is below −δ, every ternary entry is 0 and
  both rows are 0 · α = 0. The blocked accumulation against the single contraction is a regrouping of a finite
  sum (associativity and commutativity of + only), so no finiteness of the inputs is used anywhere.

  Frames: each call's body is run once per control case on whole staging buffers; the accumulator's contents
  are carried from point to point in the second call's invariant. The same text proves the bit-level kernel's
  frame and the idealized kernel's, the latter with every unscoped buffer's final contents named.
-/
import proofs.«124082_j4320737100212_2_alg».proof.Defs
import proofs.«124082_j4320737100212_2_alg».proof.Proof.Gen.Kernel
import proofs.«124082_j4320737100212_2_alg».proof.Proof.Gen.Kernel.Skeleton
import proofs.«124082_j4320737100212_2_alg».proof.Proof.Gen.Kernel.Launch
import proofs.«124082_j4320737100212_2_alg».proof.Proof.Gen.Kernel.Regions
import proofs.«124082_j4320737100212_2_alg».proof.Proof.Gen.Kernel.Points
import proofs.«124082_j4320737100212_2_alg».proof.Proof.Gen.KernelIdeal
import proofs.«124082_j4320737100212_2_alg».proof.Proof.Gen.KernelIdeal.Skeleton
import proofs.«124082_j4320737100212_2_alg».proof.Proof.Gen.KernelIdeal.Launch
import proofs.«124082_j4320737100212_2_alg».proof.Proof.Gen.KernelIdeal.Regions
import proofs.«124082_j4320737100212_2_alg».proof.Proof.Gen.KernelIdeal.Points
import proofs.«124082_j4320737100212_2_alg».proof.Proof.Gen.ReferenceIdeal
import proofs.«124082_j4320737100212_2_alg».proof.Proof.Gen.ReferenceIdeal.Run
import proofs.«124082_j4320737100212_2_alg».proof.Proof.Gen.ReferenceIdeal.Read
import proofs.«124082_j4320737100212_2_alg».proof.Proof.Gen.Pre_finite_inputs
import proofs.«124082_j4320737100212_2_alg».proof.Proof.KBRun
import proofs.«124082_j4320737100212_2_alg».proof.Proof.KIValue
import proofs.«124082_j4320737100212_2_alg».proof.Proof.RefValue
import Idealize.ShloMosaic.Adequacy
import Idealize.ShloMosaic.Init

noncomputable section

namespace Cert.Proof

open Idealize.ShloMosaic Idealize.ShloMosaic.TcCoe Idealize.SL.Sem

/-- The bit-level kernel runs to the end, faults nowhere, and leaves its three arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is host operations only: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the specification's function of the arguments:
    the kernel by the two calls' values, the reference by reading its operations one at a time and the
    equality of the two row scales. -/
theorem algebraic : Cert.algebraic_KernelIdeal_ReferenceIdeal := by
  intro m ρ m' ρ' _ hagree
  refine ⟨fun c => Cert.KernelIdeal.Hand.kres m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
